-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S50000 : Shape := ⟨1, ![50000]⟩
abbrev S2x600000 : Shape := ⟨2, ![2, 600000]⟩
abbrev S2x500000 : Shape := ⟨2, ![2, 500000]⟩
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg16 : FVec F S1 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S1 .f32 := Host.absf main_arg16
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg12 : FVec F S128x128 .f32) (main_arg13 : FVec F S128x256 .f32) (main_arg14 : FVec F S128 .f32) (main_arg15 : FVec F S1x128 .f32) (main_arg16 : FVec F S1 .f32) (main_v33 : IVec S_ 1) : IVec S_ 1 :=
  let main_v34 : FVec F S128x128 .f32 := Host.absf main_arg12
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x256 .f32 := Host.absf main_arg13
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S128 .f32 := Host.absf main_arg14
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S1x128 .f32 := Host.absf main_arg15
  let main_cst_18 : FVec F S_ .f32 := constant S_ .f32 0x7F800000#32
  let main_v50 : FVec F S1x128 .f32 := broadcastInDim S1x128 ![] bcast_S_S1x128 main_cst_18
  fn_part3 (F := F) main_arg16 main_v48 main_v49 main_v50

def fn_part1 {F : FTy → Type} [FloatOps F] (main_arg9 : FVec F S128x128 .f32) (main_arg10 : FVec F S128x128 .f32) (main_arg11 : FVec F S128 .f32) (main_arg12 : FVec F S128x128 .f32) (main_arg13 : FVec F S128x256 .f32) (main_arg14 : FVec F S128 .f32) (main_arg15 : FVec F S1x128 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg9
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg10
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg12 main_arg13 main_arg14 main_arg15 main_arg16 main_v33

def fn {F : FTy → Type} [FloatOps F] (main_arg0 : IVec S100000 32) (main_arg1 : IVec S50000 32) (main_arg2 : IVec S2x600000 32) (main_arg3 : IVec S2x600000 32) (main_arg4 : IVec S2x500000 32) (main_arg5 : FVec F S100000x128 .f32) (main_arg6 : FVec F S50000x128 .f32) (main_arg7 : FVec F S128x128 .f32) (main_arg8 : FVec F S128 .f32) (main_arg9 : FVec F S128x128 .f32) (main_arg10 : FVec F S128x128 .f32) (main_arg11 : FVec F S128 .f32) (main_arg12 : FVec F S128x128 .f32) (main_arg13 : FVec F S128x256 .f32) (main_arg14 : FVec F S128 .f32) (main_arg15 : FVec F S1x128 .f32) (main_arg16 : FVec F S1 .f32) : IVec S_ 1 :=
  let main_v0 : FVec F S100000x128 .f32 := Host.absf main_arg5
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg6
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg7
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg8
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg9 main_arg10 main_arg11 main_arg12 main_arg13 main_arg14 main_arg15 main_arg16 main_v13 main_v16
-- ==== Kernel.lean ====
abbrev S100000 : Shape := ⟨1, ![100000]⟩
abbrev S50000 : Shape := ⟨1, ![50000]⟩
abbrev S2x600000 : Shape := ⟨2, ![2, 600000]⟩
abbrev S2x500000 : Shape := ⟨2, ![2, 500000]⟩
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩
abbrev S100000x1 : Shape := ⟨2, ![100000, 1]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S5000x128 : Shape := ⟨2, ![5000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S1x1 : Shape := ⟨2, ![1, 1]⟩
abbrev S5000x1 : Shape := ⟨2, ![5000, 1]⟩
abbrev S5000 : Shape := ⟨1, ![5000]⟩

abbrev nBuf : Space → Nat
  | .hbm => 131
  | .vmem => 29
  | .smem => 0
  | _ => 0

abbrev hbmTy0_0 (i : Nat) : BufTy := match i % 128 with
  | 0 => ⟨S100000, .i32⟩
  | 1 => ⟨S50000, .i32⟩
  | 2 => ⟨S2x600000, .i32⟩
  | 3 => ⟨S2x600000, .i32⟩
  | 4 => ⟨S2x500000, .i32⟩
  | 5 => ⟨S100000x128, .f32⟩
  | 6 => ⟨S50000x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x256, .f32⟩
  | 14 => ⟨S128, .f32⟩
  | 15 => ⟨S1x128, .f32⟩
  | 16 => ⟨S1, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S1x600000, .i32⟩
  | 36 => ⟨S600000, .i32⟩
  | 37 => ⟨S1x600000, .i32⟩
  | 38 => ⟨S600000, .i32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S_, .f32⟩
  | 53 => ⟨S600000, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S1x600000, .i32⟩
  | 65 => ⟨S600000, .i32⟩
  | 66 => ⟨S1x600000, .i32⟩
  | 67 => ⟨S600000, .i32⟩
  | 68 => ⟨S_, .i32⟩
  | 69 => ⟨S600000, .i32⟩
  | 70 => ⟨S600000, .i1⟩
  | 71 => ⟨S_, .i32⟩
  | 72 => ⟨S600000, .i32⟩
  | 73 => ⟨S600000, .i32⟩
  | 74 => ⟨S600000, .i32⟩
  | 75 => ⟨S600000x1, .i32⟩
  | 76 => ⟨S600000x128, .f32⟩
  | 77 => ⟨S_, .f32⟩
  | 78 => ⟨S100000x128, .f32⟩
  | 79 => ⟨S600000x1, .i32⟩
  | 80 => ⟨S100000x128, .f32⟩
  | 81 => ⟨S_, .f32⟩
  | 82 => ⟨S600000, .f32⟩
  | 83 => ⟨S_, .f32⟩
  | 84 => ⟨S100000, .f32⟩
  | 85 => ⟨S600000x1, .i32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x128, .f32⟩
  | 92 => ⟨S100000x128, .f32⟩
  | 93 => ⟨S128x128, .f32⟩
  | 94 => ⟨S128x128, .f32⟩
  | 95 => ⟨S128x128, .f32⟩
  | 96 => ⟨S128x128, .f32⟩
  | 97 => ⟨S1x128, .f32⟩
  | 98 => ⟨S50000x128, .f32⟩
  | 99 => ⟨S1x128, .f32⟩
  | 100 => ⟨S100000x128, .f32⟩
  | 101 => ⟨S1x500000, .i32⟩
  | 102 => ⟨S500000, .i32⟩
  | 103 => ⟨S_, .i32⟩
  | 104 => ⟨S500000, .i32⟩
  | 105 => ⟨S500000, .i1⟩
  | 106 => ⟨S_, .i32⟩
  | 107 => ⟨S500000, .i32⟩
  | 108 => ⟨S500000, .i32⟩
  | 109 => ⟨S500000, .i32⟩
  | 110 => ⟨S500000x1, .i32⟩
  | 111 => ⟨S500000x128, .f32⟩
  | 112 => ⟨S1x500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S500000x128, .f32⟩
  | 123 => ⟨S128x128, .f32⟩
  | 124 => ⟨S128x128, .f32⟩
  | 125 => ⟨S128x128, .f32⟩
  | 126 => ⟨S128x128, .f32⟩
  | 127 => ⟨S1x128, .f32⟩
  | _ => ⟨S100000, .i32⟩

abbrev hbmTy0_1 (i : Nat) : BufTy := match i % 128 with
  | 0 => ⟨S1x1, .f32⟩
  | 1 => ⟨S500000x1, .f32⟩
  | 2 => ⟨S500000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x1, .f32⟩
  | .local _ .vmem, ⟨27, _⟩ => ⟨S5000x1, .f32⟩
  | .local _ .vmem, ⟨28, _⟩ => ⟨S5000x1, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_11 : Ref sig .tc := ⟨.hbm, 81, rfl⟩
abbrev main_v51 : Ref sig .tc := ⟨.hbm, 82, rfl⟩
abbrev main_cst_12 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_13 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_14 : Ref sig .tc := ⟨.hbm, 103, rfl⟩
abbrev main_v70 : Ref sig .tc := ⟨.hbm, 104, rfl⟩
abbrev main_v71 : Ref sig .tc := ⟨.hbm, 105, rfl⟩
abbrev main_c_15 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_c_17 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  slices_S128x256_S128x128_0_0 : S128x256.Slices ![0, 0] S128x128
  slices_S128x256_S128x128_0_128 : S128x256.Slices ![0, 128] S128x128
  shapeCasts_S1_S1x1 : S1.ShapeCasts S1x1
  reduces_S5000x128_S5000 : S5000x128.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S100000x128_S100000x1_S100000x128_1_0_n_n_0_1_1128_wf : GatherDims.WF S100000x128 S100000x1 S100000x128 [1] [0] [] [0] [] 1 ![1, 128]
  gather_S50000x128_S50000x1_S50000x128_1_0_n_n_0_1_1128_wf : GatherDims.WF S50000x128 S50000x1 S50000x128 [1] [0] [] [0] [] 1 ![1, 128]
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S5000x128_S128x128_S5000x128_1_0_0_1_n_n_wf : DotDims.WF S5000x128 S128x128 S5000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x1.size a ≤ S500000x1.size a
  hwx2_7 : ∀ i : grid2.Coords, EltTy.bits .f32 = 32 ∨ (Rect.block (s := S500000x1) S5000x1.size (cc2_transform_7 i) (hinb2_7 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf

abbrev win0_0 : Pipeline.Window sig grid0 :=
  Pipeline.Window.ofSpec (Memref.whole main_v36) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v60) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v64) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v65) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v59) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v66) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v76) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v85) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v91) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v92) S5000x1.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S100000 : Shape := ⟨1, ![100000]⟩
abbrev S50000 : Shape := ⟨1, ![50000]⟩
abbrev S2x600000 : Shape := ⟨2, ![2, 600000]⟩
abbrev S2x500000 : Shape := ⟨2, ![2, 500000]⟩
abbrev S100000x128 : Shape := ⟨2, ![100000, 128]⟩
abbrev S50000x128 : Shape := ⟨2, ![50000, 128]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S1 : Shape := ⟨1, ![1]⟩
abbrev S_ : Shape := ⟨0, ![]⟩
abbrev S100000x1 : Shape := ⟨2, ![100000, 1]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S1x500000 : Shape := ⟨2, ![1, 500000]⟩
abbrev S500000 : Shape := ⟨1, ![500000]⟩
abbrev S500000x1 : Shape := ⟨2, ![500000, 1]⟩
abbrev S500000x128 : Shape := ⟨2, ![500000, 128]⟩
abbrev S500000x256 : Shape := ⟨2, ![500000, 256]⟩
abbrev S256x128 : Shape := ⟨2, ![256, 128]⟩
abbrev S128x1 : Shape := ⟨2, ![128, 1]⟩
abbrev S1x1 : Shape := ⟨2, ![1, 1]⟩

abbrev nBuf : Space → Nat
  | .hbm => 152
  | .vmem => 0
  | .smem => 0
  | _ => 0

abbrev hbmTy0_0 (i : Nat) : BufTy := match i % 128 with
  | 0 => ⟨S100000, .i32⟩
  | 1 => ⟨S50000, .i32⟩
  | 2 => ⟨S2x600000, .i32⟩
  | 3 => ⟨S2x600000, .i32⟩
  | 4 => ⟨S2x500000, .i32⟩
  | 5 => ⟨S100000x128, .f32⟩
  | 6 => ⟨S50000x128, .f32⟩
  | 7 => ⟨S128x128, .f32⟩
  | 8 => ⟨S128, .f32⟩
  | 9 => ⟨S128x128, .f32⟩
  | 10 => ⟨S128x128, .f32⟩
  | 11 => ⟨S128, .f32⟩
  | 12 => ⟨S128x128, .f32⟩
  | 13 => ⟨S128x256, .f32⟩
  | 14 => ⟨S128, .f32⟩
  | 15 => ⟨S1x128, .f32⟩
  | 16 => ⟨S1, .f32⟩
  | 17 => ⟨S_, .i32⟩
  | 18 => ⟨S100000, .i32⟩
  | 19 => ⟨S100000, .i1⟩
  | 20 => ⟨S_, .i32⟩
  | 21 => ⟨S100000, .i32⟩
  | 22 => ⟨S100000, .i32⟩
  | 23 => ⟨S100000, .i32⟩
  | 24 => ⟨S100000x1, .i32⟩
  | 25 => ⟨S100000x128, .f32⟩
  | 26 => ⟨S_, .i32⟩
  | 27 => ⟨S50000, .i32⟩
  | 28 => ⟨S50000, .i1⟩
  | 29 => ⟨S_, .i32⟩
  | 30 => ⟨S50000, .i32⟩
  | 31 => ⟨S50000, .i32⟩
  | 32 => ⟨S50000, .i32⟩
  | 33 => ⟨S50000x1, .i32⟩
  | 34 => ⟨S50000x128, .f32⟩
  | 35 => ⟨S1x600000, .i32⟩
  | 36 => ⟨S600000, .i32⟩
  | 37 => ⟨S1x600000, .i32⟩
  | 38 => ⟨S600000, .i32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S_, .f32⟩
  | 49 => ⟨S50000x128, .f32⟩
  | 50 => ⟨S600000x1, .i32⟩
  | 51 => ⟨S50000x128, .f32⟩
  | 52 => ⟨S_, .f32⟩
  | 53 => ⟨S600000, .f32⟩
  | 54 => ⟨S_, .f32⟩
  | 55 => ⟨S50000, .f32⟩
  | 56 => ⟨S600000x1, .i32⟩
  | 57 => ⟨S50000, .f32⟩
  | 58 => ⟨S_, .f32⟩
  | 59 => ⟨S50000, .f32⟩
  | 60 => ⟨S50000, .f32⟩
  | 61 => ⟨S50000x1, .f32⟩
  | 62 => ⟨S50000x128, .f32⟩
  | 63 => ⟨S50000x128, .f32⟩
  | 64 => ⟨S128x128, .f32⟩
  | 65 => ⟨S50000x128, .f32⟩
  | 66 => ⟨S1x128, .f32⟩
  | 67 => ⟨S50000x128, .f32⟩
  | 68 => ⟨S50000x128, .f32⟩
  | 69 => ⟨S128x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S1x600000, .i32⟩
  | 76 => ⟨S600000, .i32⟩
  | 77 => ⟨S1x600000, .i32⟩
  | 78 => ⟨S600000, .i32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S_, .f32⟩
  | 93 => ⟨S600000, .f32⟩
  | 94 => ⟨S_, .f32⟩
  | 95 => ⟨S100000, .f32⟩
  | 96 => ⟨S600000x1, .i32⟩
  | 97 => ⟨S100000, .f32⟩
  | 98 => ⟨S_, .f32⟩
  | 99 => ⟨S100000, .f32⟩
  | 100 => ⟨S100000, .f32⟩
  | 101 => ⟨S100000x1, .f32⟩
  | 102 => ⟨S100000x128, .f32⟩
  | 103 => ⟨S100000x128, .f32⟩
  | 104 => ⟨S128x128, .f32⟩
  | 105 => ⟨S100000x128, .f32⟩
  | 106 => ⟨S1x128, .f32⟩
  | 107 => ⟨S100000x128, .f32⟩
  | 108 => ⟨S100000x128, .f32⟩
  | 109 => ⟨S128x128, .f32⟩
  | 110 => ⟨S100000x128, .f32⟩
  | 111 => ⟨S100000x128, .f32⟩
  | 112 => ⟨S_, .f32⟩
  | 113 => ⟨S100000x128, .f32⟩
  | 114 => ⟨S100000x128, .f32⟩
  | 115 => ⟨S1x500000, .i32⟩
  | 116 => ⟨S500000, .i32⟩
  | 117 => ⟨S_, .i32⟩
  | 118 => ⟨S500000, .i32⟩
  | 119 => ⟨S500000, .i1⟩
  | 120 => ⟨S_, .i32⟩
  | 121 => ⟨S500000, .i32⟩
  | 122 => ⟨S500000, .i32⟩
  | 123 => ⟨S500000, .i32⟩
  | 124 => ⟨S500000x1, .i32⟩
  | 125 => ⟨S500000x128, .f32⟩
  | 126 => ⟨S1x500000, .i32⟩
  | 127 => ⟨S500000, .i32⟩
  | _ => ⟨S100000, .i32⟩

abbrev hbmTy0_1 (i : Nat) : BufTy := match i % 128 with
  | 0 => ⟨S_, .i32⟩
  | 1 => ⟨S500000, .i32⟩
  | 2 => ⟨S500000, .i1⟩
  | 3 => ⟨S_, .i32⟩
  | 4 => ⟨S500000, .i32⟩
  | 5 => ⟨S500000, .i32⟩
  | 6 => ⟨S500000, .i32⟩
  | 7 => ⟨S500000x1, .i32⟩
  | 8 => ⟨S500000x128, .f32⟩
  | 9 => ⟨S500000x256, .f32⟩
  | 10 => ⟨S256x128, .f32⟩
  | 11 => ⟨S500000x128, .f32⟩
  | 12 => ⟨S1x128, .f32⟩
  | 13 => ⟨S500000x128, .f32⟩
  | 14 => ⟨S500000x128, .f32⟩
  | 15 => ⟨S_, .f32⟩
  | 16 => ⟨S500000x128, .f32⟩
  | 17 => ⟨S500000x128, .f32⟩
  | 18 => ⟨S128x1, .f32⟩
  | 19 => ⟨S500000x1, .f32⟩
  | 20 => ⟨S1x1, .f32⟩
  | 21 => ⟨S500000x1, .f32⟩
  | 22 => ⟨S500000x1, .f32⟩
  | 23 => ⟨S500000, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_5 : Ref sig .tc := ⟨.hbm, 52, rfl⟩
abbrev main_v28 : Ref sig .tc := ⟨.hbm, 53, rfl⟩
abbrev main_cst_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call0_cst : Ref sig .tc := ⟨.hbm, 72, rfl⟩
abbrev main_call0_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_8 : Ref sig .tc := ⟨.hbm, 79, rfl⟩
abbrev main_v50 : Ref sig .tc := ⟨.hbm, 80, rfl⟩
abbrev main_v51 : Ref sig .tc := ⟨.hbm, 81, rfl⟩
abbrev main_c_9 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_10 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_call1_cst : Ref sig .tc := ⟨.hbm, 112, rfl⟩
abbrev main_call1_v0 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_14 : Ref sig .tc := ⟨.hbm, 117, rfl⟩
abbrev main_v80 : Ref sig .tc := ⟨.hbm, 118, rfl⟩
abbrev main_v81 : Ref sig .tc := ⟨.hbm, 119, rfl⟩
abbrev main_c_15 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_16 : Ref sig .tc := ⟨.hbm, 128, rfl⟩
abbrev main_v89 : Ref sig .tc := ⟨.hbm, 129, rfl⟩
abbrev main_v90 : Ref sig .tc := ⟨.hbm, 130, rfl⟩
abbrev main_c_17 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call2_cst : Ref sig .tc := ⟨.hbm, 143, rfl⟩
abbrev main_call2_v0 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S1x128_S100000x128_0_1 : S1x128.BroadcastsInDim S100000x128 (![0, 1] : Fin 2 → Fin S100000x128.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x128_S500000x128_S500000x256_d1 : Shape.Concatenates [S500000x128, S500000x128] S500000x256 1
  transposes_S128x256_S256x128_1_0 : S128x256.Transposes [1, 0] S256x128
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  transposes_S1x128_S128x1_1_0 : S1x128.Transposes [1, 0] S128x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S100000x128_S100000x1_S100000x128_1_0_n_n_0_1_1128_wf : GatherDims.WF S100000x128 S100000x1 S100000x128 [1] [0] [] [0] [] 1 ![1, 128]
  gather_S50000x128_S50000x1_S50000x128_1_0_n_n_0_1_1128_wf : GatherDims.WF S50000x128 S50000x1 S50000x128 [1] [0] [] [0] [] 1 ![1, 128]
  gather_S100000x128_S600000x1_S600000x128_1_0_n_n_0_1_1128_wf : GatherDims.WF S100000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000x128_S600000x1_S600000x128_1_0_n_n_0_1_1128_wf : GatherDims.WF S50000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KernelRun.lean ====
/-
  The idealized kernel program's run with its result named: every weakly fair execution of @main terminates, nothing
  faulting, the argument arrays end as launched, and the result buffer ends at the contents the last boundary of
  @main's segments assigns it — the fold, from the launch memory, of the four host stretches and of the three
  regions' write-backs. @main is seven segments in order (a host stretch, a region, …, a host stretch); each
  segment's exit contents are the next one's entry contents, and the final state holds every unscoped buffer at the
  last boundary's contents, so it is read there at the result buffer and at each argument.
-/
import proofs.«173871_j35691178230509_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v93) = W7 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v93 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.KRun

end
-- ==== Proof.HostStage0.lean ====
/-
  What the kernel program's first host stretch leaves in the buffers the two convolution regions read, as functions
  of the launch memory's argument arrays.

  Before its first region the kernel program runs the same host operations as the reference does, on the same
  arguments: the two embedding gathers, for each relation the gather of the source rows, the segment sums of rows and
  of ones, and the division by `max(count, 1)`, and the four weight transposes. So each of these buffers holds the
  reference's stage of the same name, applied to the kernel program's arguments; the two bias vectors are reshaped to
  one-row matrices, read here entry by entry.
-/
import proofs.«173871_j35691178230509_1_alg».proof.Proof.Gen.KernelIdeal.Frame
import proofs.«173871_j35691178230509_1_alg».proof.Proof.Gen.ReferenceIdeal.Read
import Idealize.ShloMosaic.Lib.ValueLayout

set_option maxRecDepth 16384

noncomputable section

namespace Cert.KernelIdeal.Stage0

open Cert.KernelIdeal Cert.KernelIdeal.Gen Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option maxHeartbeats 16000000 in
/-- The first node kind's gathered features. -/
theorem v6 : W1 m ρ c (Proc.devRef .tc main_v6) = val_main_v6 (F := Ideal) (m ((c : Thread nD τ).loc main_arg0)) (m ((c : Thread nD τ).loc main_arg5)) := by
  show StableHlo.after hostOps0 (W0 m ρ c) (Proc.devRef .tc main_v6) = _
  after_results_simp
  rfl

set_option maxHeartbeats 16000000 in
/-- The second node kind's gathered features. -/
theorem v13 : W1 m ρ c (Proc.devRef .tc main_v13) = val_main_v13 (F := Ideal) (m ((c : Thread nD τ).loc main_arg1)) (m ((c : Thread nD τ).loc main_arg6)) := by
  show StableHlo.after hostOps0 (W0 m ρ c) (Proc.devRef .tc main_v13) = _
  after_results_simp
  rfl

set_option maxHeartbeats 16000000 in
/-- The mean aggregate over the first relation: the segment sum of the gathered source rows divided by `max(count, 1)`. -/
theorem v36 : W1 m ρ c (Proc.devRef .tc main_v36) = val_main_v36 (F := Ideal) (m ((c : Thread nD τ).loc main_arg0)) (m ((c : Thread nD τ).loc main_arg2)) (m ((c : Thread nD τ).loc main_arg5)) := by
  show StableHlo.after hostOps0 (W0 m ρ c) (Proc.devRef .tc main_v36) = _
  after_results_simp
  rfl

set_option maxHeartbeats 16000000 in
/-- The mean aggregate over the second relation. -/
theorem v59 : W1 m ρ c (Proc.devRef .tc main_v59) = val_main_v68 (F := Ideal) (m ((c : Thread nD τ).loc main_arg1)) (m ((c : Thread nD τ).loc main_arg3)) (m ((c : Thread nD τ).loc main_arg6)) := by
  show StableHlo.after hostOps0 (W0 m ρ c) (Proc.devRef .tc main_v59) = _
  after_results_simp
  rfl

set_option maxHeartbeats 16000000 in
/-- The first relation's aggregate weights, transposed. -/
theorem v60 : W1 m ρ c (Proc.devRef .tc main_v60) = val_main_v37 (F := Ideal) (m ((c : Thread nD τ).loc main_arg7)) := by
  show StableHlo.after hostOps0 (W0 m ρ c) (Proc.devRef .tc main_v60) = _
  after_results_simp
  rfl

set_option maxHeartbeats 16000000 in
/-- The first relation's own-feature weights, transposed. -/
theorem v61 : W1 m ρ c (Proc.devRef .tc main_v61) = val_main_v42 (F := Ideal) (m ((c : Thread nD τ).loc main_arg9)) := by
  show StableHlo.after hostOps0 (W0 m ρ c) (Proc.devRef .tc main_v61) = _
  after_results_simp
  rfl

set_option maxHeartbeats 16000000 in
/-- The second relation's aggregate weights, transposed. -/
theorem v62 : W1 m ρ c (Proc.devRef .tc main_v62) = val_main_v69 (F := Ideal) (m ((c : Thread nD τ).loc main_arg10)) := by
  show StableHlo.after hostOps0 (W0 m ρ c) (Proc.devRef .tc main_v62) = _
  after_results_simp
  rfl

set_option maxHeartbeats 16000000 in
/-- The second relation's own-feature weights, transposed. -/
theorem v63 : W1 m ρ c (Proc.devRef .tc main_v63) = val_main_v74 (F := Ideal) (m ((c : Thread nD τ).loc main_arg12)) := by
  show StableHlo.after hostOps0 (W0 m ρ c) (Proc.devRef .tc main_v63) = _
  after_results_simp
  rfl

set_option maxHeartbeats 16000000 in
/-- The first relation's bias as a one-row matrix: entry `(0, k)` is the bias vector's entry `k`. -/
theorem v64 (k : Fin 128) :
    (W1 m ρ c (Proc.devRef .tc main_v64) : S1x128.Idx → EReal) (ix2 (0 : Fin 1) k)
      = ((m ((c : Thread nD τ).loc main_arg8)) : S128.Idx → EReal) (ix1 k) := by
  have e : W1 m ρ c (Proc.devRef .tc main_v64) = shapeCast S1x128 (m ((c : Thread nD τ).loc main_arg8)) shapeCasts_S128_S1x128 := by
    show StableHlo.after hostOps0 (W0 m ρ c) (Proc.devRef .tc main_v64) = _
    after_results_simp
    rfl
  rw [e]
  exact shapeCast_a_1a_apply _ _ (0 : Fin 1) k

end Cert.KernelIdeal.Stage0

end
-- ==== Proof.LibPlainDot.lean ====
/-
  A plain matrix product read at an index, at the ideal values.

  For a left operand of shape [R, K] and a right operand of shape [K, C] contracted over the shared axis
  (no batch axis), the kernel's matrix product into a zero accumulator and the host's `dot_general` are both, at
  output index (r, c), the sum over k of left (r, k) times right (k, c).  The extents R, K, C are symbolic: the same
  lemmas serve a row block of the left operand and the whole array.
-/
import Idealize.ShloMosaic.PureOps.Ideal.Laws
import Idealize.ShloMosaic.Lib.ValueIdx

noncomputable section

namespace Cert.Lib.PlainDot

open Idealize.ShloMosaic Idealize.ShloMosaic.ValueIdx
open scoped BigOperators

variable {R K C : Nat}

/-- The left operand's index (r, k) for output index `j` = (r, c) and contraction position `k`. -/
abbrev rowIdx (j : (⟨2, ![R, C]⟩ : Shape).Idx) (k : Fin K) : (⟨2, ![R, K]⟩ : Shape).Idx := fun a => match a with
  | ⟨0, _⟩ => ⟨(j 0).val, (j 0).isLt⟩
  | ⟨1, _⟩ => ⟨k.val, k.isLt⟩
/-- The right operand's index (k, c) for output index `j` = (r, c) and contraction position `k`. -/
abbrev colIdx (j : (⟨2, ![R, C]⟩ : Shape).Idx) (k : Fin K) : (⟨2, ![K, C]⟩ : Shape).Idx := fun a => match a with
  | ⟨0, _⟩ => ⟨k.val, k.isLt⟩
  | ⟨1, _⟩ => ⟨(j 1).val, (j 1).isLt⟩

/-- The product of an [R, K] array and a [K, C] array as a function of the output index. -/
def mm (x : (⟨2, ![R, K]⟩ : Shape).Idx → EReal) (w : (⟨2, ![K, C]⟩ : Shape).Idx → EReal) :
    (⟨2, ![R, C]⟩ : Shape).Idx → EReal :=
  fun j => ∑ k : Fin K, x (rowIdx j k) * w (colIdx j k)

theorem lhs0 (j : (⟨2, ![R, C]⟩ : Shape).Idx) (q : (DotDims.plain R K C).contr.Idx) :
    ((DotDims.plain R K C).lhsIdx j q 0).val = (j 0).val := by
  unfold DotDims.lhsIdx
  rw [dif_neg (show ¬(0 : Fin 2) ∈ (DotDims.plain R K C).lhsBatch from List.not_mem_nil),
    dif_pos (show (0 : Fin 2) ∈ (DotDims.plain R K C).lhsNonContracting from List.mem_singleton.mpr rfl)]
  rfl
theorem lhs1 (j : (⟨2, ![R, C]⟩ : Shape).Idx) (q : (DotDims.plain R K C).contr.Idx) :
    ((DotDims.plain R K C).lhsIdx j q 1).val = (q ⟨0, (show 0 < (DotDims.plain R K C).contr.rank from Nat.one_pos)⟩).val :=
  (DotDims.plain R K C).lhsIdx_val_of_single rfl j q
theorem rhs0 (j : (⟨2, ![R, C]⟩ : Shape).Idx) (q : (DotDims.plain R K C).contr.Idx) :
    ((DotDims.plain R K C).rhsIdx j q 0).val = (q ⟨0, (show 0 < (DotDims.plain R K C).contr.rank from Nat.one_pos)⟩).val :=
  (DotDims.plain R K C).rhsIdx_val_of_single rfl j q
theorem rhs1 (j : (⟨2, ![R, C]⟩ : Shape).Idx) (q : (DotDims.plain R K C).contr.Idx) :
    ((DotDims.plain R K C).rhsIdx j q 1).val = (j 1).val := by
  unfold DotDims.rhsIdx
  rw [dif_neg (show ¬(1 : Fin 2) ∈ (DotDims.plain R K C).rhsBatch from List.not_mem_nil),
    dif_pos (show (1 : Fin 2) ∈ (DotDims.plain R K C).rhsNonContracting from List.mem_singleton.mpr rfl)]
  rfl

/-- The contraction's sum, re-indexed by the one contracted coordinate. -/
theorem sum_plain (x : (⟨2, ![R, K]⟩ : Shape).Idx → EReal) (w : (⟨2, ![K, C]⟩ : Shape).Idx → EReal)
    (j : (⟨2, ![R, C]⟩ : Shape).Idx) :
    ∑ q : (DotDims.plain R K C).contr.Idx, x ((DotDims.plain R K C).lhsIdx j q) * w ((DotDims.plain R K C).rhsIdx j q)
      = mm x w j := by
  unfold mm
  rw [← Equiv.sum_comp (contrEquiv1 (DotDims.plain R K C) K rfl rfl).symm]
  refine Finset.sum_congr rfl fun k _ => ?_
  have hk := contrEquiv1_symm_val (DotDims.plain R K C) K rfl rfl k
  have el : (DotDims.plain R K C).lhsIdx j ((contrEquiv1 (DotDims.plain R K C) K rfl rfl).symm k) = rowIdx j k :=
    funext fun a => Fin.ext (by
      match a with
      | ⟨0, _⟩ => exact lhs0 _ _
      | ⟨1, _⟩ => exact (lhs1 _ _).trans hk)
  have er : (DotDims.plain R K C).rhsIdx j ((contrEquiv1 (DotDims.plain R K C) K rfl rfl).symm k) = colIdx j k :=
    funext fun a => Fin.ext (by
      match a with
      | ⟨0, _⟩ => exact (rhs0 _ _).trans hk
      | ⟨1, _⟩ => exact rhs1 _ _)
  rw [el, er]

/-- The kernel's matrix product into the zero accumulator, at an index. -/
theorem matmul_zero_apply {φ₁ φ₂ : FTy} (d : DotDims ⟨2, ![R, K]⟩ ⟨2, ![K, C]⟩ ⟨2, ![R, C]⟩)
    (hd : d = DotDims.plain R K C) (prec : Option ContractPrecision)
    (x : FVec Ideal ⟨2, ![R, K]⟩ φ₁) (w : FVec Ideal ⟨2, ![K, C]⟩ φ₂) (j : (⟨2, ![R, C]⟩ : Shape).Idx) :
    FloatOps.matmul d prec x w (constant ⟨2, ![R, C]⟩ .f32 0x00000000#32) j = mm x w j := by
  subst hd
  rw [Ideal.matmul_constant_zero_apply]
  exact sum_plain x w j

/-- The host's `dot_general`, at an index. -/
theorem dotGeneral_apply {φ₁ φ₂ : FTy} (d : DotDims ⟨2, ![R, K]⟩ ⟨2, ![K, C]⟩ ⟨2, ![R, C]⟩)
    (hd : d = DotDims.plain R K C) (prec : Option ContractPrecision) (sched : HostSchedule)
    (x : FVec Ideal ⟨2, ![R, K]⟩ φ₁) (w : FVec Ideal ⟨2, ![K, C]⟩ φ₂) (j : (⟨2, ![R, C]⟩ : Shape).Idx) :
    FloatOps.dotGeneral d prec sched x w j = mm x w j := by
  subst hd
  rw [Ideal.dotGeneral_apply]
  exact sum_plain x w j

end Cert.Lib.PlainDot

end
-- ==== Proof.LibRowLayout.lean ====
/-
  Layout operations of a row-blocked kernel read at an index given by coordinates: a column broadcast over a row,
  a vector turned into a column, one column cut out of a matrix, and the two lane reductions (sum, maximum) over the second axis of a matrix,
  read at row `r` as the sum, or the fold of `max`, over the row's entries. Stated over arbitrary extents.
-/
import Idealize.ShloMosaic.Lib.ValueLayout
import Idealize.ShloMosaic.PureOps.Ideal.Laws

noncomputable section

namespace Cert.KernelIdeal.MvnKernel

open Idealize.ShloMosaic Idealize.ShloMosaic.ValueIdx

variable {α : Type}

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Column `o` of an `[a, b]` matrix, cut out as an `[a, 1]` column, reads at `(p, u)` the matrix at `(p, o)`. -/
theorem sliceCol_apply {a b : ℕ} (o : ℕ) (X : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] X h (ix2 p u) = X (ix2 p ⟨o, Nat.lt_of_lt_of_le (Nat.lt_succ_self o) (h.2 1)⟩) :=
  slice2_axis1_apply o X h p u _ (by have := u.isLt; show o = o + u.val; omega)

variable {φ : FTy}

/-- The exponential of a vector, read at an index. -/
theorem exp_apply {s : Shape} (x : FVec Ideal s φ) (i : s.Idx) : exp x i = Ideal.exp (x i) := rfl

/-- The sum over the second axis of an `[a, b]` matrix, read at row `r`: the sum of the row's entries. -/
theorem multiReduction_add_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (funext fun ax => Fin.ext (by
      match ax with
      | ⟨0, _⟩ => rfl
      | ⟨1, _⟩ => rfl)))

/-- The maximum over the second axis of an `[a, b]` matrix, read at row `r`: the fold of `max`, from the
    accumulator's value, over the row's entries. -/
theorem multiReduction_max_row {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (fun f => (Finset.univ : Finset (Fin b)).fold max (Ideal.ofBits φ acc) f) (funext fun k =>
      congrArg src (funext fun ax => Fin.ext (by
        match ax with
        | ⟨0, _⟩ => rfl
        | ⟨1, _⟩ => rfl))))

end Cert.KernelIdeal.MvnKernel

end
-- ==== Proof.DenseSpec.lean ====
/-
  The dense layers of a two-relation graph convolution and of the link classifier that follows it, as functions of
  their input arrays on the extended reals, entry by entry.

  A convolution layer sends an aggregate `a` and the nodes' own features `x` (both [N, 128]) to
  `max ((a · wa + x · wx) + b, 0)`, the weights [128, 128] contracted along their first axis and the bias added along
  the columns. The classifier applies such a layer to the two endpoint feature arrays of every candidate link and
  contracts the 128 hidden entries of a row against one weight row, plus a scalar bias.

  Two regroupings are all the algebra that is needed, and neither needs a finite entry: a sum of three terms may be
  taken in either order (addition on the extended reals is commutative and associative), and a contraction over 256
  positions is the contraction over the first 128 plus the contraction over the last 128.
-/
import proofs.«173871_j35691178230509_1_alg».proof.Proof.LibPlainDot

noncomputable section

namespace Cert.Sage

open Idealize.ShloMosaic Idealize.ShloMosaic.ValueIdx Cert.Lib.PlainDot
open scoped BigOperators

/-- The value of the all-zero word. Both programs compare against this same word, so it is never evaluated. -/
abbrev Z : EReal := Ideal.ofBits .f32 0x00000000#32

/-- The matrix product at explicit coordinates: row `r` of the left operand against column `c` of the right. -/
theorem mm_ix2 {R K C : Nat} (x : (⟨2, ![R, K]⟩ : Shape).Idx → EReal) (w : (⟨2, ![K, C]⟩ : Shape).Idx → EReal)
    (r : Fin R) (c : Fin C) : mm x w (ix2 r c) = ∑ k : Fin K, x (ix2 r k) * w (ix2 k c) := by
  unfold mm
  refine Finset.sum_congr rfl fun k _ => ?_
  have e1 : rowIdx (K := K) (ix2 r c) k = ix2 r k := funext fun a => match a with
    | ⟨0, _⟩ => rfl
    | ⟨1, _⟩ => rfl
  have e2 : colIdx (R := R) (ix2 r c) k = ix2 k c := funext fun a => match a with
    | ⟨0, _⟩ => rfl
    | ⟨1, _⟩ => rfl
  rw [e1, e2]

/-- One entry of a convolution layer: `max ((a·wa + x·wx) + b, 0)` at row `r`, column `c`. -/
def layerAt {N : Nat} (a x : (⟨2, ![N, 128]⟩ : Shape).Idx → EReal) (wa wx : (⟨2, ![128, 128]⟩ : Shape).Idx → EReal)
    (b : (⟨1, ![128]⟩ : Shape).Idx → EReal) (r : Fin N) (c : Fin 128) : EReal :=
  max (((∑ k : Fin 128, a (ix2 r k) * wa (ix2 k c)) + (∑ k : Fin 128, x (ix2 r k) * wx (ix2 k c))) + b (ix1 c)) Z

/-- The layer as an [N, 128] array. -/
def layer {N : Nat} (a x : (⟨2, ![N, 128]⟩ : Shape).Idx → EReal) (wa wx : (⟨2, ![128, 128]⟩ : Shape).Idx → EReal)
    (b : (⟨1, ![128]⟩ : Shape).Idx → EReal) : (⟨2, ![N, 128]⟩ : Shape).Idx → EReal :=
  fun j => layerAt a x wa wx b (j 0) (j 1)

theorem layer_ix2 {N : Nat} (a x : (⟨2, ![N, 128]⟩ : Shape).Idx → EReal) (wa wx : (⟨2, ![128, 128]⟩ : Shape).Idx → EReal)
    (b : (⟨1, ![128]⟩ : Shape).Idx → EReal) (r : Fin N) (c : Fin 128) :
    layer a x wa wx b (ix2 r c) = layerAt a x wa wx b r c := rfl

/-- The layer written with the bias added BEFORE the second product is the same entry: the three terms of the sum
    may be taken in either order. -/
theorem layerAt_bias_first {N : Nat} (a x : (⟨2, ![N, 128]⟩ : Shape).Idx → EReal)
    (wa wx : (⟨2, ![128, 128]⟩ : Shape).Idx → EReal) (b : (⟨1, ![128]⟩ : Shape).Idx → EReal) (r : Fin N) (c : Fin 128) :
    max (((∑ k : Fin 128, a (ix2 r k) * wa (ix2 k c)) + b (ix1 c)) + (∑ k : Fin 128, x (ix2 r k) * wx (ix2 k c))) Z
      = layerAt a x wa wx b r c := by
  unfold layerAt
  rw [add_right_comm]

/-- One entry of the link classifier: the hidden row `r` (a layer of the two endpoint arrays) contracted against the
    weight row `w2`, plus the scalar bias. -/
def classifyAt {L : Nat} (s d : (⟨2, ![L, 128]⟩ : Shape).Idx → EReal) (wa wb : (⟨2, ![128, 128]⟩ : Shape).Idx → EReal)
    (b1 : (⟨1, ![128]⟩ : Shape).Idx → EReal) (w2 : (⟨2, ![1, 128]⟩ : Shape).Idx → EReal)
    (b2 : (⟨1, ![1]⟩ : Shape).Idx → EReal) (r : Fin L) : EReal :=
  (∑ c : Fin 128, layerAt s d wa wb b1 r c * w2 (ix2 (0 : Fin 1) c)) + b2 (ix1 (0 : Fin 1))

/-- The classifier as an [L, 1] column. -/
def classify {L : Nat} (s d : (⟨2, ![L, 128]⟩ : Shape).Idx → EReal) (wa wb : (⟨2, ![128, 128]⟩ : Shape).Idx → EReal)
    (b1 : (⟨1, ![128]⟩ : Shape).Idx → EReal) (w2 : (⟨2, ![1, 128]⟩ : Shape).Idx → EReal)
    (b2 : (⟨1, ![1]⟩ : Shape).Idx → EReal) : (⟨2, ![L, 1]⟩ : Shape).Idx → EReal :=
  fun j => classifyAt s d wa wb b1 w2 b2 (j 0)

theorem classify_ix2 {L : Nat} (s d : (⟨2, ![L, 128]⟩ : Shape).Idx → EReal) (wa wb : (⟨2, ![128, 128]⟩ : Shape).Idx → EReal)
    (b1 : (⟨1, ![128]⟩ : Shape).Idx → EReal) (w2 : (⟨2, ![1, 128]⟩ : Shape).Idx → EReal)
    (b2 : (⟨1, ![1]⟩ : Shape).Idx → EReal) (r : Fin L) (u : Fin 1) :
    classify s d wa wb b1 w2 b2 (ix2 r u) = classifyAt s d wa wb b1 w2 b2 r := rfl

/-- A sum over 256 positions is the sum over the first 128 plus the sum over the last 128. -/
theorem sum_256_split {M : Type} [AddCommMonoid M] (f : Fin 256 → M) :
    ∑ k : Fin 256, f k
      = (∑ k : Fin 128, f ⟨k.val, Nat.lt_of_lt_of_le k.isLt (by decide)⟩)
        + ∑ k : Fin 128, f ⟨128 + k.val, by have := k.isLt; omega⟩ :=
  Fin.sum_univ_add (a := 128) (b := 128) (f : Fin (128 + 128) → M)

end Cert.Sage

end
-- ==== Proof.KernelBody.lean ====
/-
  What the three kernel bodies store, read entry by entry at the ideal values, as functions of the blocks they load.

  The two convolution bodies store, at row `r` and column `c` of a 5000-row block,
  `max ((Σ_k a(r,k)·wa(k,c) + Σ_k x(r,k)·wx(k,c)) + b(0,c), 0)`: a change of float format is the identity on the
  extended reals, and a matrix product into a zero accumulator is the plain sum of products.
  The classifier body forms the same hidden entries from its two row blocks, multiplies row `r` by the weight row,
  sums the 128 lanes and adds the scalar bias.
-/
import proofs.«173871_j35691178230509_1_alg».proof.Proof.Gen.KernelIdeal.Skeleton
import proofs.«173871_j35691178230509_1_alg».proof.Proof.LibPlainDot
import proofs.«173871_j35691178230509_1_alg».proof.Proof.LibRowLayout
import proofs.«173871_j35691178230509_1_alg».proof.Proof.DenseSpec
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx Cert.Lib.PlainDot Cert.Sage
open scoped BigOperators

/-- The bodies' matrix products contract the left operand's columns against the right operand's rows. -/
theorem dot_plain : dot_S5000x128_S128x128_S5000x128_1_0_0_1_n_n = DotDims.plain 5000 128 128 := rfl

/-- A change of float format is the identity on the extended reals. -/
theorem truncf_id {s : Shape} {φ ψ : FTy} (a : FVec Ideal s φ) (h : ψ.bits < φ.bits) :
    (truncf ψ a h : FVec Ideal s ψ) = a := rfl

/-- The hidden entry both kinds of body compute, from a block's rows. -/
def hid (x0 x3 : (⟨2, ![5000, 128]⟩ : Shape).Idx → EReal) (x6 x9 : (⟨2, ![128, 128]⟩ : Shape).Idx → EReal)
    (x15 : (⟨2, ![1, 128]⟩ : Shape).Idx → EReal) (r : Fin 5000) (c : Fin 128) : EReal :=
  max (((∑ k : Fin 128, x0 (ix2 r k) * x6 (ix2 k c)) + (∑ k : Fin 128, x3 (ix2 r k) * x9 (ix2 k c))) + x15 (ix2 (0 : Fin 1) c)) Z

/-- The first convolution body's stored value at `(r, c)`. -/
theorem pay0_apply (x0 x3 : Vec Ideal S5000x128 .f32) (x6 x9 : Vec Ideal S128x128 .f32) (x15 : Vec Ideal S1x128 .f32)
    (r : Fin 5000) (c : Fin 128) :
    k0_pay1 (F := Ideal) x0 x3 x6 x9 x15 (ix2 r c) = hid x0 x3 x6 x9 x15 r c := by
  unfold k0_pay1 hid
  simp only [shapeCast_self, truncf_id]
  rw [maximumf_apply, addf_apply, addf_apply, broadcast_apply]
  have h1 := (matmul_zero_apply (φ₁ := .f32) (φ₂ := .f32) _ dot_plain none x0 x6 (ix2 r c)).trans (mm_ix2 x0 x6 r c)
  have h2 := (matmul_zero_apply (φ₁ := .f32) (φ₂ := .f32) _ dot_plain none x3 x9 (ix2 r c)).trans (mm_ix2 x3 x9 r c)
  have h3 := broadcastTo_1b_ab_apply x15 broadcasts_S1x128_S5000x128 r c
  exact congrArg₂ max (congrArg₂ (· + ·) (congrArg₂ (· + ·) h1 h2) h3) rfl

/-- The second convolution body is the same text. -/
theorem pay1_apply (x0 x3 : Vec Ideal S5000x128 .f32) (x6 x9 : Vec Ideal S128x128 .f32) (x15 : Vec Ideal S1x128 .f32)
    (r : Fin 5000) (c : Fin 128) :
    k1_pay1 (F := Ideal) x0 x3 x6 x9 x15 (ix2 r c) = hid x0 x3 x6 x9 x15 r c :=
  pay0_apply x0 x3 x6 x9 x15 r c

/-- The classifier body's stored value at row `r` of its one column. -/
theorem pay2_apply (x0 x3 : Vec Ideal S5000x128 .f32) (x6 x9 : Vec Ideal S128x128 .f32) (x15 x21 : Vec Ideal S1x128 .f32)
    (x26 : Vec Ideal S1x1 .f32) (r : Fin 5000) (u : Fin 1) :
    k2_pay1 (F := Ideal) x0 x3 x6 x9 x15 x21 x26 (ix2 r u)
      = (∑ c : Fin 128, hid x0 x3 x6 x9 x15 r c * x21 (ix2 (0 : Fin 1) c)) + x26 (ix2 (0 : Fin 1) (0 : Fin 1)) := by
  have hu : u = 0 := Subsingleton.elim _ _
  subst hu
  have hh : ∀ c : Fin 128, k0_pay1 (F := Ideal) x0 x3 x6 x9 x15 (ix2 r c) = hid x0 x3 x6 x9 x15 r c :=
    fun c => pay0_apply x0 x3 x6 x9 x15 r c
  unfold k2_pay1
  rw [addf_apply]
  refine congrArg₂ (· + ·) ?_ ?_
  · refine (Cert.KernelIdeal.MvnKernel.shapeCast_a_a1_apply _ _ r (0 : Fin 1)).trans ?_
    refine (Cert.KernelIdeal.MvnKernel.multiReduction_add_row _ _ _ _ _ r).trans ?_
    refine Finset.sum_congr rfl fun c _ => ?_
    rw [mulf_apply]
    exact congrArg₂ (· * ·) (hh c) (broadcastTo_1b_ab_apply _ _ r c)
  · refine (broadcastTo_1b_ab_apply _ _ r (0 : Fin 1)).trans ?_
    rw [shapeCast_self]

end Cert.KernelIdeal.Body

end
-- ==== Proof.Region0.lean ====
/-
  Convolution region 0: the array it leaves, as one function of the arrays it finds.

  The region's grid has 10 points; point `t` reads rows `5000·t … 5000·t + 4999` of the aggregate and of the
  nodes' own features, the two weight matrices and the bias row whole, and writes back rows
  `5000·t … 5000·t + 4999` of the result. Entry `(r, c)` of a block depends only on row `r` of the two row blocks,
  so what point `t` writes back is block `t` of ONE array function of the whole inputs — the layer
  `max ((a·wa + x·wx) + b, 0)` — and the 10 blocks cover the 50000 rows: the region leaves that layer.
  Stated for any contents `V` the region may be entered with.
-/
import proofs.«173871_j35691178230509_1_alg».proof.Proof.Gen.KernelIdeal.Frame
import proofs.«173871_j35691178230509_1_alg».proof.Proof.KernelBody
import Idealize.ShloMosaic.Lib.Pipeline.Value

set_option maxRecDepth 16384

noncomputable section

namespace Cert.KernelIdeal.Region0

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at block `(t, 0)`,
    the weights and the bias at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of block `t` of the aggregate is row `5000·t + r` of the array. -/
theorem rows_a (c : Dev nD) (t : Fin cfg0.N) (r : Fin 5000) (k : Fin 128) (R : Fin 50000) (hR : R.val = 5000 * t.val + r.val) :
    (iblk0 V c 0 t : Vec Ideal S5000x128 .f32) (ix2 r k) = (V c main_v36 : S50000x128.Idx → EReal) (ix2 R k) := by
  obtain ⟨e0, e1, -⟩ := idx_facts t
  unfold iblk0
  rw [View.read_apply]
  show V c main_v36 _ = V c main_v36 _
  congr 1
  funext a
  apply Fin.ext
  match a with
  | ⟨0, _⟩ => show win0_0.index t 0 * 5000 + 1 * r.val = R.val; rw [e0, hR]; omega
  | ⟨1, _⟩ => show win0_0.index t 1 * 128 + 1 * k.val = k.val; rw [e1]; omega

/-- Row `r` of block `t` of the nodes' own features is row `5000·t + r` of the array. -/
theorem rows_x (c : Dev nD) (t : Fin cfg0.N) (r : Fin 5000) (k : Fin 128) (R : Fin 50000) (hR : R.val = 5000 * t.val + r.val) :
    (iblk0 V c 1 t : Vec Ideal S5000x128 .f32) (ix2 r k) = (V c main_v13 : S50000x128.Idx → EReal) (ix2 R k) := by
  obtain ⟨-, -, e0, e1, -⟩ := idx_facts t
  unfold iblk0
  rw [View.read_apply]
  show V c main_v13 _ = V c main_v13 _
  congr 1
  funext a
  apply Fin.ext
  match a with
  | ⟨0, _⟩ => show win0_1.index t 0 * 5000 + 1 * r.val = R.val; rw [e0, hR]; omega
  | ⟨1, _⟩ => show win0_1.index t 1 * 128 + 1 * k.val = k.val; rw [e1]; omega

/-- The first weight matrix is read whole at every point. -/
theorem whole_wa (c : Dev nD) (t : Fin cfg0.N) : (iblk0 V c 2 t : Vec Ideal S128x128 .f32) = (V c main_v60 : S128x128.Idx → EReal) := by
  obtain ⟨-, -, -, -, e0, e1, -⟩ := idx_facts t
  funext y
  unfold iblk0
  rw [View.read_apply]
  show V c main_v60 _ = V c main_v60 _
  congr 1
  funext a
  apply Fin.ext
  match a with
  | ⟨0, _⟩ => show win0_2.index t 0 * 128 + 1 * (y 0).val = (y 0).val; rw [e0]; omega
  | ⟨1, _⟩ => show win0_2.index t 1 * 128 + 1 * (y 1).val = (y 1).val; rw [e1]; omega

/-- The bias row is read whole at every point. -/
theorem whole_b (c : Dev nD) (t : Fin cfg0.N) : (iblk0 V c 3 t : Vec Ideal S1x128 .f32) = (V c main_v64 : S1x128.Idx → EReal) := by
  obtain ⟨-, -, -, -, -, -, e0, e1, -⟩ := idx_facts t
  funext y
  unfold iblk0
  rw [View.read_apply]
  show V c main_v64 _ = V c main_v64 _
  congr 1
  funext a
  apply Fin.ext
  match a with
  | ⟨0, _⟩ => show win0_3.index t 0 * 1 + 1 * (y 0).val = (y 0).val; rw [e0]; omega
  | ⟨1, _⟩ => show win0_3.index t 1 * 128 + 1 * (y 1).val = (y 1).val; rw [e1]; omega

/-- The second weight matrix is read whole at every point. -/
theorem whole_wx (c : Dev nD) (t : Fin cfg0.N) : (iblk0 V c 4 t : Vec Ideal S128x128 .f32) = (V c main_v61 : S128x128.Idx → EReal) := by
  obtain ⟨-, -, -, -, -, -, -, -, e0, e1, -⟩ := idx_facts t
  funext y
  unfold iblk0
  rw [View.read_apply]
  show V c main_v61 _ = V c main_v61 _
  congr 1
  funext a
  apply Fin.ext
  match a with
  | ⟨0, _⟩ => show win0_4.index t 0 * 128 + 1 * (y 0).val = (y 0).val; rw [e0]; omega
  | ⟨1, _⟩ => show win0_4.index t 1 * 128 + 1 * (y 1).val = (y 1).val; rw [e1]; omega

/-- What point `t` writes back is block `t` of the layer of the whole input arrays; `b` is the bias as a vector, which
    the bias row the region finds spells (`hb`). -/
theorem flushed_eq (c : Dev nD) (b : (⟨1, ![128]⟩ : Shape).Idx → EReal)
    (hb : ∀ k : Fin 128, (V c main_v64 : S1x128.Idx → EReal) (ix2 (0 : Fin 1) k) = b (ix1 k)) (t : Fin cfg0.N) :
    (dat0 V c).flushed 5 t
      = ((cfg0.win 5).blk t).view.read (Elt Ideal)
          (layer (N := 50000) (V c main_v36) (V c main_v13) (V c main_v60) (V c main_v61) b) := by
  have hN : cfg0.N = 10 := N_0
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  funext j
  obtain ⟨r, k, rfl⟩ : ∃ (r : Fin 5000) (k : Fin 128), j = ix2 r k := ⟨j 0, j 1, eq_ix2 j⟩
  have ht : t.val < 10 := hN ▸ t.isLt
  let R : Fin 50000 := ⟨5000 * t.val + r.val, by have := r.isLt; omega⟩
  have hR : ((cfg0.win 5).blk t).view.emb (ix2 r k) = (ix2 R k : S50000x128.Idx) := by
    funext a
    apply Fin.ext
    match a with
    | ⟨0, _⟩ => show win0_5.index t 0 * 5000 + 1 * r.val = 5000 * t.val + r.val; rw [e50]; omega
    | ⟨1, _⟩ => show win0_5.index t 1 * 128 + 1 * k.val = k.val; rw [e51]; omega
  show k0_pay1 (F := Ideal) (iblk0 V c 0 t) (iblk0 V c 1 t) (iblk0 V c 2 t) (iblk0 V c 4 t) (iblk0 V c 3 t) (ix2 r k)
    = layer (N := 50000) (V c main_v36) (V c main_v13) (V c main_v60) (V c main_v61) b (((cfg0.win 5).blk t).view.emb (ix2 r k))
  refine (pay0_apply _ _ _ _ _ r k).trans ?_
  rw [hR, layer_ix2]
  unfold hid layerAt
  have h0 : ∀ k' : Fin 128, (iblk0 V c 0 t : Vec Ideal S5000x128 .f32) (ix2 r k') = (V c main_v36 : S50000x128.Idx → EReal) (ix2 R k') :=
    fun k' => rows_a V c t r k' R rfl
  have h1 : ∀ k' : Fin 128, (iblk0 V c 1 t : Vec Ideal S5000x128 .f32) (ix2 r k') = (V c main_v13 : S50000x128.Idx → EReal) (ix2 R k') :=
    fun k' => rows_x V c t r k' R rfl
  rw [whole_wa V c t, whole_wx V c t, whole_b V c t, hb k]
  simp only [h0, h1]

/-- An index of the result array is in point `t`'s block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v65).slice (win0_5.rect t)).set ↔ _
  rw [View.set_slice_whole, Rect.mem_set_unit]
  exact Iff.rfl

/-- Every row of the result lies in the block of the point `row / 5000`. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  have hlt : (i 0).val / 5000 < cfg0.N := by rw [hN]; omega
  obtain ⟨-, -, -, -, -, -, -, -, -, -, e50, e51⟩ := idx_facts ⟨(i 0).val / 5000, hlt⟩
  refine ⟨⟨(i 0).val / 5000, hlt⟩, flush0_5 _, ?_⟩
  rw [mem_blk]
  intro a
  match a with
  | ⟨0, _⟩ =>
    show win0_5.index ⟨(i 0).val / 5000, hlt⟩ 0 * 5000 ≤ (i 0).val ∧ (i 0).val < win0_5.index ⟨(i 0).val / 5000, hlt⟩ 0 * 5000 + 5000
    rw [e50]
    show (i 0).val / 5000 * 5000 ≤ (i 0).val ∧ (i 0).val < (i 0).val / 5000 * 5000 + 5000
    omega
  | ⟨1, _⟩ =>
    show win0_5.index ⟨(i 0).val / 5000, hlt⟩ 1 * 128 ≤ (i 1).val ∧ (i 1).val < win0_5.index ⟨(i 0).val / 5000, hlt⟩ 1 * 128 + 128
    rw [e51]
    omega

/-- The array the region leaves: the layer of the arrays it finds. -/
theorem out (c : Dev nD) (b : (⟨1, ![128]⟩ : Shape).Idx → EReal)
    (hb : ∀ k : Fin 128, (V c main_v64 : S1x128.Idx → EReal) (ix2 (0 : Fin 1) k) = b (ix1 k)) :
    (dat0 V c).arrAt 5 cfg0.N = layer (N := 50000) (V c main_v36) (V c main_v13) (V c main_v60) (V c main_v61) b :=
  (dat0 V c).arrAt_eq_of_cover 5 _ (fun t _ => flushed_eq V c b hb t) cover

end Cert.KernelIdeal.Region0

end
-- ==== Proof.Region1.lean ====
/-
  Convolution region 1: the array it leaves, as one function of the arrays it finds.

  The region's grid has 20 points; point `t` reads rows `5000·t … 5000·t + 4999` of the aggregate and of the
  nodes' own features, the two weight matrices and the bias row whole, and writes back rows
  `5000·t … 5000·t + 4999` of the result. Entry `(r, c)` of a block depends only on row `r` of the two row blocks,
  so what point `t` writes back is block `t` of ONE array function of the whole inputs — the layer
  `max ((a·wa + x·wx) + b, 0)` — and the 20 blocks cover the 100000 rows: the region leaves that layer.
  Stated for any contents `V` the region may be entered with.
-/
import proofs.«173871_j35691178230509_1_alg».proof.Proof.Gen.KernelIdeal.Frame
import proofs.«173871_j35691178230509_1_alg».proof.Proof.KernelBody
import Idealize.ShloMosaic.Lib.Pipeline.Value

set_option maxRecDepth 16384

noncomputable section

namespace Cert.KernelIdeal.Region1

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at block `(t, 0)`,
    the weights and the bias at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `r` of block `t` of the aggregate is row `5000·t + r` of the array. -/
theorem rows_a (c : Dev nD) (t : Fin cfg1.N) (r : Fin 5000) (k : Fin 128) (R : Fin 100000) (hR : R.val = 5000 * t.val + r.val) :
    (iblk1 V c 0 t : Vec Ideal S5000x128 .f32) (ix2 r k) = (V c main_v59 : S100000x128.Idx → EReal) (ix2 R k) := by
  obtain ⟨e0, e1, -⟩ := idx_facts t
  unfold iblk1
  rw [View.read_apply]
  show V c main_v59 _ = V c main_v59 _
  congr 1
  funext a
  apply Fin.ext
  match a with
  | ⟨0, _⟩ => show win1_0.index t 0 * 5000 + 1 * r.val = R.val; rw [e0, hR]; omega
  | ⟨1, _⟩ => show win1_0.index t 1 * 128 + 1 * k.val = k.val; rw [e1]; omega

/-- Row `r` of block `t` of the nodes' own features is row `5000·t + r` of the array. -/
theorem rows_x (c : Dev nD) (t : Fin cfg1.N) (r : Fin 5000) (k : Fin 128) (R : Fin 100000) (hR : R.val = 5000 * t.val + r.val) :
    (iblk1 V c 1 t : Vec Ideal S5000x128 .f32) (ix2 r k) = (V c main_v6 : S100000x128.Idx → EReal) (ix2 R k) := by
  obtain ⟨-, -, e0, e1, -⟩ := idx_facts t
  unfold iblk1
  rw [View.read_apply]
  show V c main_v6 _ = V c main_v6 _
  congr 1
  funext a
  apply Fin.ext
  match a with
  | ⟨0, _⟩ => show win1_1.index t 0 * 5000 + 1 * r.val = R.val; rw [e0, hR]; omega
  | ⟨1, _⟩ => show win1_1.index t 1 * 128 + 1 * k.val = k.val; rw [e1]; omega

/-- The first weight matrix is read whole at every point. -/
theorem whole_wa (c : Dev nD) (t : Fin cfg1.N) : (iblk1 V c 2 t : Vec Ideal S128x128 .f32) = (V c main_v62 : S128x128.Idx → EReal) := by
  obtain ⟨-, -, -, -, e0, e1, -⟩ := idx_facts t
  funext y
  unfold iblk1
  rw [View.read_apply]
  show V c main_v62 _ = V c main_v62 _
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- The bias row is read whole at every point. -/
theorem whole_b (c : Dev nD) (t : Fin cfg1.N) : (iblk1 V c 3 t : Vec Ideal S1x128 .f32) = (V c main_v66 : S1x128.Idx → EReal) := by
  obtain ⟨-, -, -, -, -, -, e0, e1, -⟩ := idx_facts t
  funext y
  unfold iblk1
  rw [View.read_apply]
  show V c main_v66 _ = V c main_v66 _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The second weight matrix is read whole at every point. -/
theorem whole_wx (c : Dev nD) (t : Fin cfg1.N) : (iblk1 V c 4 t : Vec Ideal S128x128 .f32) = (V c main_v63 : S128x128.Idx → EReal) := by
  obtain ⟨-, -, -, -, -, -, -, -, e0, e1, -⟩ := idx_facts t
  funext y
  unfold iblk1
  rw [View.read_apply]
  show V c main_v63 _ = V c main_v63 _
  congr 1
  funext a
  apply Fin.ext
  match a with
  | ⟨0, _⟩ => show win1_4.index t 0 * 128 + 1 * (y 0).val = (y 0).val; rw [e0]; omega
  | ⟨1, _⟩ => show win1_4.index t 1 * 128 + 1 * (y 1).val = (y 1).val; rw [e1]; omega

/-- What point `t` writes back is block `t` of the layer of the whole input arrays; `b` is the bias as a vector, which
    the bias row the region finds spells (`hb`). -/
theorem flushed_eq (c : Dev nD) (b : (⟨1, ![128]⟩ : Shape).Idx → EReal)
    (hb : ∀ k : Fin 128, (V c main_v66 : S1x128.Idx → EReal) (ix2 (0 : Fin 1) k) = b (ix1 k)) (t : Fin cfg1.N) :
    (dat1 V c).flushed 5 t
      = ((cfg1.win 5).blk t).view.read (Elt Ideal)
          (layer (N := 100000) (V c main_v59) (V c main_v6) (V c main_v62) (V c main_v63) b) := by
  have hN : cfg1.N = 20 := N_1
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e50, e51⟩ := idx_facts t
  funext j
  obtain ⟨r, k, rfl⟩ : ∃ (r : Fin 5000) (k : Fin 128), j = ix2 r k := ⟨j 0, j 1, eq_ix2 j⟩
  have ht : t.val < 20 := hN ▸ t.isLt
  let R : Fin 100000 := ⟨5000 * t.val + r.val, by have := r.isLt; omega⟩
  have hR : ((cfg1.win 5).blk t).view.emb (ix2 r k) = (ix2 R k : S100000x128.Idx) := by
    funext a
    apply Fin.ext
    match a with
    | ⟨0, _⟩ => show win1_5.index t 0 * 5000 + 1 * r.val = 5000 * t.val + r.val; rw [e50]; omega
    | ⟨1, _⟩ => show win1_5.index t 1 * 128 + 1 * k.val = k.val; rw [e51]; omega
  show k1_pay1 (F := Ideal) (iblk1 V c 0 t) (iblk1 V c 1 t) (iblk1 V c 2 t) (iblk1 V c 4 t) (iblk1 V c 3 t) (ix2 r k)
    = layer (N := 100000) (V c main_v59) (V c main_v6) (V c main_v62) (V c main_v63) b (((cfg1.win 5).blk t).view.emb (ix2 r k))
  refine (pay1_apply _ _ _ _ _ r k).trans ?_
  rw [hR, layer_ix2]
  unfold hid layerAt
  have h0 : ∀ k' : Fin 128, (iblk1 V c 0 t : Vec Ideal S5000x128 .f32) (ix2 r k') = (V c main_v59 : S100000x128.Idx → EReal) (ix2 R k') :=
    fun k' => rows_a V c t r k' R rfl
  have h1 : ∀ k' : Fin 128, (iblk1 V c 1 t : Vec Ideal S5000x128 .f32) (ix2 r k') = (V c main_v6 : S100000x128.Idx → EReal) (ix2 R k') :=
    fun k' => rows_x V c t r k' R rfl
  rw [whole_wa V c t, whole_wx V c t, whole_b V c t, hb k]
  simp only [h0, h1]

/-- An index of the result array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v67).slice (win1_5.rect t)).set ↔ _
  rw [View.set_slice_whole, Rect.mem_set_unit]
  exact Iff.rfl

/-- Every row of the result lies in the block of the point `row / 5000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e50, e51⟩ := idx_facts ⟨(i 0).val / 5000, hlt⟩
  refine ⟨⟨(i 0).val / 5000, hlt⟩, flush1_5 _, ?_⟩
  rw [mem_blk]
  intro a
  match a with
  | ⟨0, _⟩ =>
    show win1_5.index ⟨(i 0).val / 5000, hlt⟩ 0 * 5000 ≤ (i 0).val ∧ (i 0).val < win1_5.index ⟨(i 0).val / 5000, hlt⟩ 0 * 5000 + 5000
    rw [e50]
    show (i 0).val / 5000 * 5000 ≤ (i 0).val ∧ (i 0).val < (i 0).val / 5000 * 5000 + 5000
    omega
  | ⟨1, _⟩ =>
    show win1_5.index ⟨(i 0).val / 5000, hlt⟩ 1 * 128 ≤ (i 1).val ∧ (i 1).val < win1_5.index ⟨(i 0).val / 5000, hlt⟩ 1 * 128 + 128
    rw [e51]
    omega

/-- The array the region leaves: the layer of the arrays it finds. -/
theorem out (c : Dev nD) (b : (⟨1, ![128]⟩ : Shape).Idx → EReal)
    (hb : ∀ k : Fin 128, (V c main_v66 : S1x128.Idx → EReal) (ix2 (0 : Fin 1) k) = b (ix1 k)) :
    (dat1 V c).arrAt 5 cfg1.N = layer (N := 100000) (V c main_v59) (V c main_v6) (V c main_v62) (V c main_v63) b :=
  (dat1 V c).arrAt_eq_of_cover 5 _ (fun t _ => flushed_eq V c b hb t) cover

end Cert.KernelIdeal.Region1

end
-- ==== Proof.Region2.lean ====
/-
  The classifier region: the column it leaves, as one function of the arrays it finds.

  The region's grid has 100 points; point `t` reads rows `5000·t … 5000·t + 4999` of the two endpoint feature
  arrays, the two weight matrices, the hidden bias row, the output weight row and the scalar bias whole, and writes
  back rows `5000·t … 5000·t + 4999` of the one-column result. Row `r` of a block depends only on row `r` of the two
  row blocks, so what point `t` writes back is block `t` of the classifier of the whole inputs, and the 100 blocks
  cover the 500000 rows. Stated for any contents `V` the region may be entered with.
-/
import proofs.«173871_j35691178230509_1_alg».proof.Proof.Gen.KernelIdeal.Frame
import proofs.«173871_j35691178230509_1_alg».proof.Proof.KernelBody
import Idealize.ShloMosaic.Lib.Pipeline.Value

set_option maxRecDepth 16384

noncomputable section

namespace Cert.KernelIdeal.Region2

open Cert.KernelIdeal Cert.KernelIdeal.Gen Cert.KernelIdeal.Body Cert.Sage
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the two row-blocked inputs and the output sit at block `(t, 0)`. -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_7.index t (0 : Fin 2) = t.val ∧ win2_7.index t (1 : Fin 2) = 0 :=
  (by decide +kernel : ∀ t : Fin grid2.N, _)

/-- The five small operands sit at block `(0, 0)` at every point. -/
theorem idx_whole : ∀ t : Fin cfg2.N,
    win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `r` of block `t` of the first endpoint array is row `5000·t + r` of the array. -/
theorem rows_s (c : Dev nD) (t : Fin cfg2.N) (r : Fin 5000) (k : Fin 128) (R : Fin 500000) (hR : R.val = 5000 * t.val + r.val) :
    (iblk2 V c 0 t : Vec Ideal S5000x128 .f32) (ix2 r k) = (V c main_v76 : S500000x128.Idx → EReal) (ix2 R k) := by
  obtain ⟨e0, e1, -⟩ := idx_rows t
  unfold iblk2
  rw [View.read_apply]
  show V c main_v76 _ = V c main_v76 _
  congr 1
  funext a
  apply Fin.ext
  match a with
  | ⟨0, _⟩ => show win2_0.index t 0 * 5000 + 1 * r.val = R.val; rw [e0, hR]; omega
  | ⟨1, _⟩ => show win2_0.index t 1 * 128 + 1 * k.val = k.val; rw [e1]; omega

/-- Row `r` of block `t` of the second endpoint array is row `5000·t + r` of the array. -/
theorem rows_d (c : Dev nD) (t : Fin cfg2.N) (r : Fin 5000) (k : Fin 128) (R : Fin 500000) (hR : R.val = 5000 * t.val + r.val) :
    (iblk2 V c 1 t : Vec Ideal S5000x128 .f32) (ix2 r k) = (V c main_v85 : S500000x128.Idx → EReal) (ix2 R k) := by
  obtain ⟨-, -, e0, e1, -⟩ := idx_rows t
  unfold iblk2
  rw [View.read_apply]
  show V c main_v85 _ = V c main_v85 _
  congr 1
  funext a
  apply Fin.ext
  match a with
  | ⟨0, _⟩ => show win2_1.index t 0 * 5000 + 1 * r.val = R.val; rw [e0, hR]; omega
  | ⟨1, _⟩ => show win2_1.index t 1 * 128 + 1 * k.val = k.val; rw [e1]; omega

/-- The first weight matrix is read whole at every point. -/
theorem whole_wa (c : Dev nD) (t : Fin cfg2.N) : (iblk2 V c 2 t : Vec Ideal S128x128 .f32) = (V c main_v88 : S128x128.Idx → EReal) := by
  have e0 : win2_2.index t (0 : Fin 2) = 0 := (idx_whole t).1
  have e1 : win2_2.index t (1 : Fin 2) = 0 := (idx_whole t).2.1
  funext y
  unfold iblk2
  rw [View.read_apply]
  show V c main_v88 _ = V c main_v88 _
  congr 1
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- The second weight matrix is read whole at every point. -/
theorem whole_wb (c : Dev nD) (t : Fin cfg2.N) : (iblk2 V c 3 t : Vec Ideal S128x128 .f32) = (V c main_v89 : S128x128.Idx → EReal) := by
  have e0 : win2_3.index t (0 : Fin 2) = 0 := (idx_whole t).2.2.1
  have e1 : win2_3.index t (1 : Fin 2) = 0 := (idx_whole t).2.2.2.1
  funext y
  unfold iblk2
  rw [View.read_apply]
  show V c main_v89 _ = V c main_v89 _
  congr 1
  funext a
  apply Fin.ext
  match a with
  | ⟨0, _⟩ => show win2_3.index t 0 * 128 + 1 * (y 0).val = (y 0).val; rw [e0]; omega
  | ⟨1, _⟩ => show win2_3.index t 1 * 128 + 1 * (y 1).val = (y 1).val; rw [e1]; omega

/-- The hidden bias row is read whole at every point. -/
theorem whole_b1 (c : Dev nD) (t : Fin cfg2.N) : (iblk2 V c 4 t : Vec Ideal S1x128 .f32) = (V c main_v90 : S1x128.Idx → EReal) := by
  have e0 : win2_4.index t (0 : Fin 2) = 0 := (idx_whole t).2.2.2.2.1
  have e1 : win2_4.index t (1 : Fin 2) = 0 := (idx_whole t).2.2.2.2.2.1
  funext y
  unfold iblk2
  rw [View.read_apply]
  show V c main_v90 _ = V c main_v90 _
  congr 1
  funext a
  apply Fin.ext
  match a with
  | ⟨0, _⟩ => show win2_4.index t 0 * 1 + 1 * (y 0).val = (y 0).val; rw [e0]; omega
  | ⟨1, _⟩ => show win2_4.index t 1 * 128 + 1 * (y 1).val = (y 1).val; rw [e1]; omega

/-- The output weight row is read whole at every point. -/
theorem whole_w2 (c : Dev nD) (t : Fin cfg2.N) : (iblk2 V c 5 t : Vec Ideal S1x128 .f32) = (V c main_arg15 : S1x128.Idx → EReal) := by
  have e0 : win2_5.index t (0 : Fin 2) = 0 := (idx_whole t).2.2.2.2.2.2.1
  have e1 : win2_5.index t (1 : Fin 2) = 0 := (idx_whole t).2.2.2.2.2.2.2.1
  funext y
  unfold iblk2
  rw [View.read_apply]
  show V c main_arg15 _ = V c main_arg15 _
  congr 1
  funext a
  apply Fin.ext
  match a with
  | ⟨0, _⟩ => show win2_5.index t 0 * 1 + 1 * (y 0).val = (y 0).val; rw [e0]; omega
  | ⟨1, _⟩ => show win2_5.index t 1 * 128 + 1 * (y 1).val = (y 1).val; rw [e1]; omega

/-- The scalar bias is read whole at every point. -/
theorem whole_b2 (c : Dev nD) (t : Fin cfg2.N) : (iblk2 V c 6 t : Vec Ideal S1x1 .f32) = (V c main_v91 : S1x1.Idx → EReal) := by
  have e0 : win2_6.index t (0 : Fin 2) = 0 := (idx_whole t).2.2.2.2.2.2.2.2.1
  have e1 : win2_6.index t (1 : Fin 2) = 0 := (idx_whole t).2.2.2.2.2.2.2.2.2
  funext y
  unfold iblk2
  rw [View.read_apply]
  show V c main_v91 _ = V c main_v91 _
  congr 1
  funext a
  apply Fin.ext
  match a with
  | ⟨0, _⟩ => show win2_6.index t 0 * 1 + 1 * (y 0).val = (y 0).val; rw [e0]; omega
  | ⟨1, _⟩ => show win2_6.index t 1 * 1 + 1 * (y 1).val = (y 1).val; rw [e1]; omega

/-- What point `t` writes back is block `t` of the classifier of the whole input arrays; `b1` and `b2` are the two
    biases as vectors, which the rows the region finds spell (`hb1`, `hb2`). -/
theorem flushed_eq (c : Dev nD) (b1 : (⟨1, ![128]⟩ : Shape).Idx → EReal) (b2 : (⟨1, ![1]⟩ : Shape).Idx → EReal)
    (hb1 : ∀ k : Fin 128, (V c main_v90 : S1x128.Idx → EReal) (ix2 (0 : Fin 1) k) = b1 (ix1 k))
    (hb2 : (V c main_v91 : S1x1.Idx → EReal) (ix2 (0 : Fin 1) (0 : Fin 1)) = b2 (ix1 (0 : Fin 1))) (t : Fin cfg2.N) :
    (dat2 V c).flushed 7 t
      = ((cfg2.win 7).blk t).view.read (Elt Ideal)
          (classify (L := 500000) (V c main_v76) (V c main_v85) (V c main_v88) (V c main_v89) b1 (V c main_arg15) b2) := by
  have hN : cfg2.N = 100 := N_2
  show (cfg2.win 7).cut (grid2.coords t) ((dat2 V c).after 7 t) = _
  rw [after2_7]
  unfold out2_7
  rw [View.canon_unit_zero hz]
  simp only [View.ld_unit_zero (S := S5000x128) hz, View.ld_unit_zero (S := S128x128) hz, View.ld_unit_zero (S := S1x128) hz,
    View.ld_unit_zero (S := S1x1) hz]
  obtain ⟨-, -, -, -, e70, e71⟩ := idx_rows t
  funext j
  obtain ⟨r, u, rfl⟩ : ∃ (r : Fin 5000) (u : Fin 1), j = ix2 r u := ⟨j 0, j 1, eq_ix2 j⟩
  have ht : t.val < 100 := hN ▸ t.isLt
  let R : Fin 500000 := ⟨5000 * t.val + r.val, by have := r.isLt; omega⟩
  have hR : ((cfg2.win 7).blk t).view.emb (ix2 r u) = (ix2 R u : S500000x1.Idx) := by
    funext a
    apply Fin.ext
    match a with
    | ⟨0, _⟩ => show win2_7.index t 0 * 5000 + 1 * r.val = 5000 * t.val + r.val; rw [e70]; omega
    | ⟨1, _⟩ => show win2_7.index t 1 * 1 + 1 * u.val = u.val; rw [e71]; omega
  show k2_pay1 (F := Ideal) (iblk2 V c 0 t) (iblk2 V c 1 t) (iblk2 V c 2 t) (iblk2 V c 3 t) (iblk2 V c 4 t) (iblk2 V c 5 t) (iblk2 V c 6 t) (ix2 r u)
    = classify (L := 500000) (V c main_v76) (V c main_v85) (V c main_v88) (V c main_v89) b1 (V c main_arg15) b2 (((cfg2.win 7).blk t).view.emb (ix2 r u))
  refine (pay2_apply _ _ _ _ _ _ _ r u).trans ?_
  rw [hR, classify_ix2]
  unfold classifyAt hid layerAt
  have h0 : ∀ k' : Fin 128, (iblk2 V c 0 t : Vec Ideal S5000x128 .f32) (ix2 r k') = (V c main_v76 : S500000x128.Idx → EReal) (ix2 R k') :=
    fun k' => rows_s V c t r k' R rfl
  have h1 : ∀ k' : Fin 128, (iblk2 V c 1 t : Vec Ideal S5000x128 .f32) (ix2 r k') = (V c main_v85 : S500000x128.Idx → EReal) (ix2 R k') :=
    fun k' => rows_d V c t r k' R rfl
  rw [whole_wa V c t, whole_wb V c t, whole_b1 V c t, whole_w2 V c t, whole_b2 V c t, hb2]
  simp only [h0, h1, hb1]

/-- An index of the result column is in point `t`'s block iff each coordinate is in the block's range on its axis. -/
theorem mem_blk (t : Fin cfg2.N) (i : S500000x1.Idx) :
    i ∈ ((cfg2.win 7).blk t).view.set ↔ ∀ a : Fin 2, win2_7.index t a * S5000x1.size a ≤ (i a).val ∧ (i a).val < win2_7.index t a * S5000x1.size a + S5000x1.size a := by
  show i ∈ ((View.whole main_v92).slice (win2_7.rect t)).set ↔ _
  rw [View.set_slice_whole, Rect.mem_set_unit]
  exact Iff.rfl

/-- Every row of the result lies in the block of the point `row / 5000`. -/
theorem cover (i : S500000x1.Idx) : ∃ t : Fin cfg2.N, (cfg2.win 7).flush t = true ∧ i ∈ ((cfg2.win 7).blk t).view.set := by
  have hi0 : (i 0).val < 500000 := (i 0).isLt
  have hi1 : (i 1).val < 1 := (i 1).isLt
  have hN : cfg2.N = 100 := N_2
  have hlt : (i 0).val / 5000 < cfg2.N := by rw [hN]; omega
  obtain ⟨-, -, -, -, e70, e71⟩ := idx_rows ⟨(i 0).val / 5000, hlt⟩
  refine ⟨⟨(i 0).val / 5000, hlt⟩, flush2_7 _, ?_⟩
  rw [mem_blk]
  intro a
  match a with
  | ⟨0, _⟩ =>
    show win2_7.index ⟨(i 0).val / 5000, hlt⟩ 0 * 5000 ≤ (i 0).val ∧ (i 0).val < win2_7.index ⟨(i 0).val / 5000, hlt⟩ 0 * 5000 + 5000
    rw [e70]
    show (i 0).val / 5000 * 5000 ≤ (i 0).val ∧ (i 0).val < (i 0).val / 5000 * 5000 + 5000
    omega
  | ⟨1, _⟩ =>
    show win2_7.index ⟨(i 0).val / 5000, hlt⟩ 1 * 1 ≤ (i 1).val ∧ (i 1).val < win2_7.index ⟨(i 0).val / 5000, hlt⟩ 1 * 1 + 1
    rw [e71]
    omega

/-- The column the region leaves: the classifier of the arrays it finds. -/
theorem out (c : Dev nD) (b1 : (⟨1, ![128]⟩ : Shape).Idx → EReal) (b2 : (⟨1, ![1]⟩ : Shape).Idx → EReal)
    (hb1 : ∀ k : Fin 128, (V c main_v90 : S1x128.Idx → EReal) (ix2 (0 : Fin 1) k) = b1 (ix1 k))
    (hb2 : (V c main_v91 : S1x1.Idx → EReal) (ix2 (0 : Fin 1) (0 : Fin 1)) = b2 (ix1 (0 : Fin 1))) :
    (dat2 V c).arrAt 7 cfg2.N
      = classify (L := 500000) (V c main_v76) (V c main_v85) (V c main_v88) (V c main_v89) b1 (V c main_arg15) b2 :=
  (dat2 V c).arrAt_eq_of_cover 7 _ (fun t _ => flushed_eq V c b1 b2 hb1 hb2 t) cover

end Cert.KernelIdeal.Region2

end
-- ==== Proof.RefLayers.lean ====
/-
  The reference's three dense layers, each as the layer function of the reference's own earlier stages.

  The reference adds the bias to the first product before it adds the second product, applies `max(·, 0)`, and for
  the classifier contracts the concatenation of the two endpoint arrays (256 columns) against the transposed
  [128, 256] weight matrix. Entry by entry these are the layer `max ((a·wa + x·wx) + b, 0)` — the three terms of the
  sum in another order — and, for the classifier, the same layer with the 256-term contraction split into the first
  128 positions (the first endpoint array against the first 128 weight columns) and the last 128 (the second
  endpoint array against the last 128 weight columns).
-/
import proofs.«173871_j35691178230509_1_alg».proof.Proof.Gen.ReferenceIdeal.Read
import proofs.«173871_j35691178230509_1_alg».proof.Proof.DenseSpec
import Idealize.ShloMosaic.Lib.ValueLayout
import Idealize.ShloMosaic.Lib.Pipeline.Value

noncomputable section

namespace Cert.ReferenceIdeal.Layers

open Cert.ReferenceIdeal Cert.ReferenceIdeal.Gen Cert.ReferenceIdeal.Read Cert.Sage
open Idealize.ShloMosaic Idealize.ShloMosaic.ValueIdx
open scoped BigOperators

/-- The first convolution, activated: the layer of the aggregate over the first relation, its target nodes' own
    features, the two transposed weight matrices and the bias. -/
theorem layer_flag (x0 : (⟨S100000, .i32⟩ : BufTy).Contents (Elt Ideal)) (x1 : (⟨S50000, .i32⟩ : BufTy).Contents (Elt Ideal)) (x2 : (⟨S2x600000, .i32⟩ : BufTy).Contents (Elt Ideal)) (x5 : (⟨S100000x128, .f32⟩ : BufTy).Contents (Elt Ideal)) (x6 : (⟨S50000x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) :
    val_main_v45 (F := Ideal) x0 x1 x2 x5 x6 x7 x8 x9
      = layer (N := 50000) (val_main_v36 (F := Ideal) x0 x2 x5) (val_main_v13 (F := Ideal) x1 x6)
          (val_main_v37 (F := Ideal) x7) (val_main_v42 (F := Ideal) x9) x8 := by
  funext i
  obtain ⟨r, c, rfl⟩ : ∃ (r : Fin 50000) (c : Fin 128), i = ix2 r c := ⟨i 0, i 1, eq_ix2 i⟩
  have e1 : ∀ k : Fin 128, lidx_main_v38 (ix2 r c) k = (ix2 r k : S50000x128.Idx) := fun k => funext fun a => match a with | ⟨0, _⟩ => rfl | ⟨1, _⟩ => rfl
  have e2 : ∀ k : Fin 128, ridx_main_v38 (ix2 r c) k = (ix2 k c : S128x128.Idx) := fun k => funext fun a => match a with | ⟨0, _⟩ => rfl | ⟨1, _⟩ => rfl
  have e3 : ∀ k : Fin 128, lidx_main_v43 (ix2 r c) k = (ix2 r k : S50000x128.Idx) := fun k => funext fun a => match a with | ⟨0, _⟩ => rfl | ⟨1, _⟩ => rfl
  have e4 : ∀ k : Fin 128, ridx_main_v43 (ix2 r c) k = (ix2 k c : S128x128.Idx) := fun k => funext fun a => match a with | ⟨0, _⟩ => rfl | ⟨1, _⟩ => rfl
  have e5 : idx_main_v39 (idx_main_v40 (ix2 r c)) = (ix1 c : S128.Idx) := funext fun a => match a with | ⟨0, _⟩ => rfl
  rw [val_main_v45_apply, val_main_v44_apply, val_main_v41_apply, val_main_v38_apply, val_main_v43_apply,
    val_main_v40_apply, val_main_v39_apply, val_main_call0_v0_apply, val_main_call0_cst_apply, layer_ix2]
  simp only [e1, e2, e3, e4, e5]
  exact layerAt_bias_first _ _ _ _ _ r c

/-- The second convolution, activated: the same layer over the second relation and its target nodes. -/
theorem layer_can (x0 : (⟨S100000, .i32⟩ : BufTy).Contents (Elt Ideal)) (x1 : (⟨S50000, .i32⟩ : BufTy).Contents (Elt Ideal)) (x3 : (⟨S2x600000, .i32⟩ : BufTy).Contents (Elt Ideal)) (x5 : (⟨S100000x128, .f32⟩ : BufTy).Contents (Elt Ideal)) (x6 : (⟨S50000x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) :
    val_main_v77 (F := Ideal) x0 x1 x3 x5 x6 x10 x11 x12
      = layer (N := 100000) (val_main_v68 (F := Ideal) x1 x3 x6) (val_main_v6 (F := Ideal) x0 x5)
          (val_main_v69 (F := Ideal) x10) (val_main_v74 (F := Ideal) x12) x11 := by
  funext i
  obtain ⟨r, c, rfl⟩ : ∃ (r : Fin 100000) (c : Fin 128), i = ix2 r c := ⟨i 0, i 1, eq_ix2 i⟩
  have e1 : ∀ k : Fin 128, lidx_main_v70 (ix2 r c) k = (ix2 r k : S100000x128.Idx) := fun k => funext fun a => match a with | ⟨0, _⟩ => rfl | ⟨1, _⟩ => rfl
  have e2 : ∀ k : Fin 128, ridx_main_v70 (ix2 r c) k = (ix2 k c : S128x128.Idx) := fun k => funext fun a => match a with | ⟨0, _⟩ => rfl | ⟨1, _⟩ => rfl
  have e3 : ∀ k : Fin 128, lidx_main_v75 (ix2 r c) k = (ix2 r k : S100000x128.Idx) := fun k => funext fun a => match a with | ⟨0, _⟩ => rfl | ⟨1, _⟩ => rfl
  have e4 : ∀ k : Fin 128, ridx_main_v75 (ix2 r c) k = (ix2 k c : S128x128.Idx) := fun k => funext fun a => match a with | ⟨0, _⟩ => rfl | ⟨1, _⟩ => rfl
  have e5 : idx_main_v71 (idx_main_v72 (ix2 r c)) = (ix1 c : S128.Idx) := funext fun a => match a with | ⟨0, _⟩ => rfl
  rw [val_main_v77_apply, val_main_v76_apply, val_main_v73_apply, val_main_v70_apply, val_main_v75_apply,
    val_main_v72_apply, val_main_v71_apply, val_main_call1_v0_apply, val_main_call1_cst_apply, layer_ix2]
  simp only [e1, e2, e3, e4, e5]
  exact layerAt_bias_first _ _ _ _ _ r c

/-- A column below 128 of the concatenation is the first endpoint array's. -/
theorem concat_left (s d : S500000x128.Idx → EReal) (r : Fin 500000) (k : Fin 128) :
    concatenate S500000x256 1 [⟨S500000x128, s⟩, ⟨S500000x128, d⟩] concatenates_S500000x128_S500000x128_S500000x256_d1
        (ix2 r (⟨k.val, Nat.lt_of_lt_of_le k.isLt (by decide)⟩ : Fin 256)) = s (ix2 r k) :=
  concatenate_pair_apply_left (t := S500000x256) (s₁ := S500000x128) (s₂ := S500000x128) 1 s d
    concatenates_S500000x128_S500000x128_S500000x256_d1
    (ix2 r (⟨k.val, Nat.lt_of_lt_of_le k.isLt (by decide)⟩ : Fin 256)) rfl (ix2 r k)
    (fun b => match b with | ⟨0, _⟩ => rfl | ⟨1, _⟩ => rfl)

/-- Column `128 + k` of the concatenation is column `k` of the second endpoint array. -/
theorem concat_right (s d : S500000x128.Idx → EReal) (r : Fin 500000) (k : Fin 128) :
    concatenate S500000x256 1 [⟨S500000x128, s⟩, ⟨S500000x128, d⟩] concatenates_S500000x128_S500000x128_S500000x256_d1
        (ix2 r (⟨128 + k.val, by have := k.isLt; omega⟩ : Fin 256)) = d (ix2 r k) :=
  concatenate_pair_apply_right (t := S500000x256) (s₁ := S500000x128) (s₂ := S500000x128) 1 s d
    concatenates_S500000x128_S500000x128_S500000x256_d1
    (ix2 r (⟨128 + k.val, by have := k.isLt; omega⟩ : Fin 256)) rfl rfl (ix2 r k)
    (fun b hb => match b with | ⟨0, _⟩ => rfl | ⟨1, _⟩ => absurd rfl hb)
    (by show k.val + 128 = 128 + k.val; omega)

/-- One hidden entry of the classifier: the layer of the two endpoint arrays, with `wa`, `wb` any two [128, 128]
    matrices that spell the first and the last 128 columns of the weight matrix, transposed. -/
theorem hidden (x0 : (⟨S100000, .i32⟩ : BufTy).Contents (Elt Ideal)) (x1 : (⟨S50000, .i32⟩ : BufTy).Contents (Elt Ideal)) (x2 : (⟨S2x600000, .i32⟩ : BufTy).Contents (Elt Ideal)) (x3 : (⟨S2x600000, .i32⟩ : BufTy).Contents (Elt Ideal)) (x4 : (⟨S2x500000, .i32⟩ : BufTy).Contents (Elt Ideal)) (x5 : (⟨S100000x128, .f32⟩ : BufTy).Contents (Elt Ideal)) (x6 : (⟨S50000x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x256, .f32⟩ : BufTy).Contents (Elt Ideal)) (x14 : (⟨S128, .f32⟩ : BufTy).Contents (Elt Ideal))
    (wa wb : (⟨2, ![128, 128]⟩ : Shape).Idx → EReal)
    (hwa : ∀ k c : Fin 128, wa (ix2 k c) = x13 (ix2 c (⟨k.val, Nat.lt_of_lt_of_le k.isLt (by decide)⟩ : Fin 256)))
    (hwb : ∀ k c : Fin 128, wb (ix2 k c) = x13 (ix2 c (⟨128 + k.val, by have := k.isLt; omega⟩ : Fin 256)))
    (r : Fin 500000) (c : Fin 128) :
    val_main_v102 (F := Ideal) x0 x1 x2 x3 x4 x5 x6 x7 x8 x9 x10 x11 x12 x13 x14 (ix2 r c)
      = layerAt (N := 500000) (val_main_v86 (F := Ideal) x0 x1 x3 x4 x5 x6 x10 x11 x12) (val_main_v95 (F := Ideal) x0 x1 x2 x4 x5 x6 x7 x8 x9) wa wb x14 r c := by
  have e1 : ∀ k : Fin 256, lidx_main_v98 (ix2 r c) k = (ix2 r k : S500000x256.Idx) := fun k => funext fun a => match a with | ⟨0, _⟩ => rfl | ⟨1, _⟩ => rfl
  have e2 : ∀ k : Fin 256, ridx_main_v98 (ix2 r c) k = (ix2 k c : S256x128.Idx) := fun k => funext fun a => match a with | ⟨0, _⟩ => rfl | ⟨1, _⟩ => rfl
  have e3 : ∀ k : Fin 256, idx_main_v97 (ix2 k c) = (ix2 c k : S128x256.Idx) := fun k => funext fun a => match a with | ⟨0, _⟩ => rfl | ⟨1, _⟩ => rfl
  have e5 : idx_main_v99 (idx_main_v100 (ix2 r c)) = (ix1 c : S128.Idx) := funext fun a => match a with | ⟨0, _⟩ => rfl
  rw [val_main_v102_apply, val_main_v101_apply, val_main_v98_apply, val_main_v100_apply, val_main_v99_apply,
    val_main_call2_v0_apply, val_main_call2_cst_apply]
  simp only [e1, e2, e5, val_main_v97_apply, e3]
  rw [sum_256_split]
  unfold val_main_v96 layerAt
  generalize val_main_v86 (F := Ideal) x0 x1 x3 x4 x5 x6 x10 x11 x12 = s
  generalize val_main_v95 (F := Ideal) x0 x1 x2 x4 x5 x6 x7 x8 x9 = d
  simp only [concat_left, concat_right, ← hwa, ← hwb]
  rfl

/-- The reference's last column before the reshape: the classifier of the two endpoint arrays. -/
theorem classifier (x0 : (⟨S100000, .i32⟩ : BufTy).Contents (Elt Ideal)) (x1 : (⟨S50000, .i32⟩ : BufTy).Contents (Elt Ideal)) (x2 : (⟨S2x600000, .i32⟩ : BufTy).Contents (Elt Ideal)) (x3 : (⟨S2x600000, .i32⟩ : BufTy).Contents (Elt Ideal)) (x4 : (⟨S2x500000, .i32⟩ : BufTy).Contents (Elt Ideal)) (x5 : (⟨S100000x128, .f32⟩ : BufTy).Contents (Elt Ideal)) (x6 : (⟨S50000x128, .f32⟩ : BufTy).Contents (Elt Ideal)) (x7 : (⟨S128x128, .f32⟩ : BufTy).Contents (Elt Ideal)) (x8 : (⟨S128, .f32⟩ : BufTy).Contents (Elt Ideal)) (x9 : (⟨S128x128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128x256, .f32⟩ : BufTy).Contents (Elt Ideal)) (x14 : (⟨S128, .f32⟩ : BufTy).Contents (Elt Ideal)) (x15 : (⟨S1x128, .f32⟩ : BufTy).Contents (Elt Ideal)) (x16 : (⟨S1, .f32⟩ : BufTy).Contents (Elt Ideal))
    (wa wb : (⟨2, ![128, 128]⟩ : Shape).Idx → EReal)
    (hwa : ∀ k c : Fin 128, wa (ix2 k c) = x13 (ix2 c (⟨k.val, Nat.lt_of_lt_of_le k.isLt (by decide)⟩ : Fin 256)))
    (hwb : ∀ k c : Fin 128, wb (ix2 k c) = x13 (ix2 c (⟨128 + k.val, by have := k.isLt; omega⟩ : Fin 256))) :
    val_main_v107 (F := Ideal) x0 x1 x2 x3 x4 x5 x6 x7 x8 x9 x10 x11 x12 x13 x14 x15 x16
      = classify (L := 500000) (val_main_v86 (F := Ideal) x0 x1 x3 x4 x5 x6 x10 x11 x12) (val_main_v95 (F := Ideal) x0 x1 x2 x4 x5 x6 x7 x8 x9) wa wb x14 x15 x16 := by
  funext i
  obtain ⟨r, u, rfl⟩ : ∃ (r : Fin 500000) (u : Fin 1), i = ix2 r u := ⟨i 0, i 1, eq_ix2 i⟩
  have hu : u = 0 := Subsingleton.elim _ _
  subst hu
  have e1 : ∀ k : Fin 128, lidx_main_v104 (ix2 r (0 : Fin 1)) k = (ix2 r k : S500000x128.Idx) := fun k => funext fun a => match a with | ⟨0, _⟩ => rfl | ⟨1, _⟩ => rfl
  have e2 : ∀ k : Fin 128, idx_main_v103 (ridx_main_v104 (ix2 r (0 : Fin 1)) k) = (ix2 (0 : Fin 1) k : S1x128.Idx) := fun k => funext fun a => match a with | ⟨0, _⟩ => rfl | ⟨1, _⟩ => rfl
  have e3 : idx_main_v105 (idx_main_v106 (ix2 r (0 : Fin 1))) = (ix1 (0 : Fin 1) : S1.Idx) := funext fun a => match a with | ⟨0, _⟩ => rfl
  rw [val_main_v107_apply, val_main_v104_apply, val_main_v106_apply, val_main_v105_apply, classify_ix2]
  simp only [val_main_v103_apply, e1, e2, e3, hidden x0 x1 x2 x3 x4 x5 x6 x7 x8 x9 x10 x11 x12 x13 x14 wa wb hwa hwb r]
  rfl

end Cert.ReferenceIdeal.Layers

end
-- ==== Proof.KernelFold.lean ====
/-
  The kernel program's result buffer read back through @main's seven segments to the launch memory.

  Going backwards: the result is the reshape of the classifier region's column; that region leaves the classifier of
  the arrays it finds, which the third host stretch computed — the two endpoint arrays by gathering rows of the two
  convolution regions' results at the label indices, the two weight matrices as transposed halves of the [128, 256]
  matrix, the biases reshaped —; each convolution region leaves the layer of the arrays it finds, which the first
  host stretch computed from the arguments. At every step the buffer holds the reference's stage of the same meaning
  applied to the kernel program's own arguments, so the result buffer ends at the reference's last stage of them.
-/
import proofs.«173871_j35691178230509_1_alg».proof.Proof.Gen.KernelIdeal.Frame
import proofs.«173871_j35691178230509_1_alg».proof.Proof.Gen.ReferenceIdeal.Read
import proofs.«173871_j35691178230509_1_alg».proof.Proof.HostStage0
import proofs.«173871_j35691178230509_1_alg».proof.Proof.Region0
import proofs.«173871_j35691178230509_1_alg».proof.Proof.Region1
import proofs.«173871_j35691178230509_1_alg».proof.Proof.Region2
import proofs.«173871_j35691178230509_1_alg».proof.Proof.RefLayers
import Idealize.ShloMosaic.Lib.ValueLayout

set_option maxRecDepth 16384

noncomputable section

namespace Cert.KernelIdeal.Fold

open Cert.KernelIdeal Cert.KernelIdeal.Gen Cert.ReferenceIdeal.Read Cert.ReferenceIdeal.Layers Cert.Sage
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- A buffer that no operation of a host stretch writes holds after the stretch what it held before. -/
macro "no_write" : tactic => `(tactic| (
  refine StableHlo.after_of_forall_not_mem _ _ (List.forall_iff_forall_mem.mp ?_)
  simp only [hostOps0, hostOps1, hostOps2, hostOps3, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The first convolution region -/

/-- The first convolution region leaves the reference's activated first convolution of the arguments. -/
theorem W2_v65 : W2 m ρ c (Proc.devRef .tc main_v65) = val_main_v45 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W2_arr m ρ c 5).trans ?_
  rw [Region0.out (V1 m ρ) c (m ((c : Thread nD τ).loc main_arg8)) (fun k => Stage0.v64 m ρ c k), layer_flag]
  show layer (N := 50000) (W1 m ρ c (Proc.devRef .tc main_v36)) (W1 m ρ c (Proc.devRef .tc main_v13))
    (W1 m ρ c (Proc.devRef .tc main_v60)) (W1 m ρ c (Proc.devRef .tc main_v61)) _ = _
  rw [Stage0.v36, Stage0.v13, Stage0.v60, Stage0.v61]

/-! ## The second convolution region: its inputs are the first host stretch's, untouched by the first region and by the
    one reshape between the regions -/

theorem W3_v59 : W3 m ρ c (Proc.devRef .tc main_v59) = val_main_v68 (F := Ideal) (m ((c : Thread nD τ).loc main_arg1)) (m ((c : Thread nD τ).loc main_arg3)) (m ((c : Thread nD τ).loc main_arg6)) :=
  (show StableHlo.after hostOps1 (W2 m ρ c) (Proc.devRef .tc main_v59) = W2 m ρ c (Proc.devRef .tc main_v59) by no_write).trans
    ((W2_of_ne m ρ c main_v59 (by decide)).trans (Stage0.v59 m ρ c))

theorem W3_v6 : W3 m ρ c (Proc.devRef .tc main_v6) = val_main_v6 (F := Ideal) (m ((c : Thread nD τ).loc main_arg0)) (m ((c : Thread nD τ).loc main_arg5)) :=
  (show StableHlo.after hostOps1 (W2 m ρ c) (Proc.devRef .tc main_v6) = W2 m ρ c (Proc.devRef .tc main_v6) by no_write).trans
    ((W2_of_ne m ρ c main_v6 (by decide)).trans (Stage0.v6 m ρ c))

theorem W3_v62 : W3 m ρ c (Proc.devRef .tc main_v62) = val_main_v69 (F := Ideal) (m ((c : Thread nD τ).loc main_arg10)) :=
  (show StableHlo.after hostOps1 (W2 m ρ c) (Proc.devRef .tc main_v62) = W2 m ρ c (Proc.devRef .tc main_v62) by no_write).trans
    ((W2_of_ne m ρ c main_v62 (by decide)).trans (Stage0.v62 m ρ c))

theorem W3_v63 : W3 m ρ c (Proc.devRef .tc main_v63) = val_main_v74 (F := Ideal) (m ((c : Thread nD τ).loc main_arg12)) :=
  (show StableHlo.after hostOps1 (W2 m ρ c) (Proc.devRef .tc main_v63) = W2 m ρ c (Proc.devRef .tc main_v63) by no_write).trans
    ((W2_of_ne m ρ c main_v63 (by decide)).trans (Stage0.v63 m ρ c))

/-- The second relation's bias as a one-row matrix: entry `(0, k)` is the bias vector's entry `k`. -/
theorem W3_v66 (k : Fin 128) :
    (W3 m ρ c (Proc.devRef .tc main_v66) : S1x128.Idx → EReal) (ix2 (0 : Fin 1) k)
      = ((m ((c : Thread nD τ).loc main_arg11)) : S128.Idx → EReal) (ix1 k) := by
  have e : W3 m ρ c (Proc.devRef .tc main_v66)
      = shapeCast S1x128 (W2 m ρ c (Proc.devRef .tc main_arg11)) shapeCasts_S128_S1x128 := by
    show StableHlo.after hostOps1 (W2 m ρ c) (Proc.devRef .tc main_v66) = _
    after_results
    rfl
  have e11 : W2 m ρ c (Proc.devRef .tc main_arg11) = (m ((c : Thread nD τ).loc main_arg11)) :=
    (W2_of_ne m ρ c main_arg11 (by decide)).trans
      ((show StableHlo.after hostOps0 (W0 m ρ c) (Proc.devRef .tc main_arg11) = W0 m ρ c (Proc.devRef .tc main_arg11) by no_write).trans rfl)
  rw [e, e11]
  exact shapeCast_a_1a_apply _ _ (0 : Fin 1) k

/-- The second convolution region leaves the reference's activated second convolution of the arguments. -/
theorem W4_v67 : W4 m ρ c (Proc.devRef .tc main_v67) = val_main_v77 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg10)) (m ((c : Thread nD τ).loc main_arg11)) (m ((c : Thread nD τ).loc main_arg12)) := by
  refine (W4_arr m ρ c 5).trans ?_
  rw [Region1.out (V3 m ρ) c (m ((c : Thread nD τ).loc main_arg11)) (fun k => W3_v66 m ρ c k), layer_can]
  show layer (N := 100000) (W3 m ρ c (Proc.devRef .tc main_v59)) (W3 m ρ c (Proc.devRef .tc main_v6))
    (W3 m ρ c (Proc.devRef .tc main_v62)) (W3 m ρ c (Proc.devRef .tc main_v63)) _ = _
  rw [W3_v59, W3_v6, W3_v62, W3_v63]

/-- The first region's result is still there when the second region has run. -/
theorem W4_v65 : W4 m ρ c (Proc.devRef .tc main_v65) = val_main_v45 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_of_ne m ρ c main_v65 (by decide)).trans
    ((show StableHlo.after hostOps1 (W2 m ρ c) (Proc.devRef .tc main_v65) = W2 m ρ c (Proc.devRef .tc main_v65) by no_write).trans
      (W2_v65 m ρ c))

/-! ## The third host stretch: the classifier region's inputs -/

/-- Argument 4 is written by nothing before the classifier region: it is still the launch memory's there. -/
theorem W4_arg4 : W4 m ρ c (Proc.devRef .tc main_arg4) = (m ((c : Thread nD τ).loc main_arg4)) :=
  (W4_of_ne m ρ c main_arg4 (by decide)).trans
    ((show StableHlo.after hostOps1 (W2 m ρ c) (Proc.devRef .tc main_arg4) = W2 m ρ c (Proc.devRef .tc main_arg4) by no_write).trans
      ((W2_of_ne m ρ c main_arg4 (by decide)).trans
        ((show StableHlo.after hostOps0 (W0 m ρ c) (Proc.devRef .tc main_arg4) = W0 m ρ c (Proc.devRef .tc main_arg4) by no_write).trans rfl)))

/-- Argument 13 is written by nothing before the classifier region: it is still the launch memory's there. -/
theorem W4_arg13 : W4 m ρ c (Proc.devRef .tc main_arg13) = (m ((c : Thread nD τ).loc main_arg13)) :=
  (W4_of_ne m ρ c main_arg13 (by decide)).trans
    ((show StableHlo.after hostOps1 (W2 m ρ c) (Proc.devRef .tc main_arg13) = W2 m ρ c (Proc.devRef .tc main_arg13) by no_write).trans
      ((W2_of_ne m ρ c main_arg13 (by decide)).trans
        ((show StableHlo.after hostOps0 (W0 m ρ c) (Proc.devRef .tc main_arg13) = W0 m ρ c (Proc.devRef .tc main_arg13) by no_write).trans rfl)))

/-- Argument 14 is written by nothing before the classifier region: it is still the launch memory's there. -/
theorem W4_arg14 : W4 m ρ c (Proc.devRef .tc main_arg14) = (m ((c : Thread nD τ).loc main_arg14)) :=
  (W4_of_ne m ρ c main_arg14 (by decide)).trans
    ((show StableHlo.after hostOps1 (W2 m ρ c) (Proc.devRef .tc main_arg14) = W2 m ρ c (Proc.devRef .tc main_arg14) by no_write).trans
      ((W2_of_ne m ρ c main_arg14 (by decide)).trans
        ((show StableHlo.after hostOps0 (W0 m ρ c) (Proc.devRef .tc main_arg14) = W0 m ρ c (Proc.devRef .tc main_arg14) by no_write).trans rfl)))

/-- Argument 15 is written by nothing before the classifier region: it is still the launch memory's there. -/
theorem W4_arg15 : W4 m ρ c (Proc.devRef .tc main_arg15) = (m ((c : Thread nD τ).loc main_arg15)) :=
  (W4_of_ne m ρ c main_arg15 (by decide)).trans
    ((show StableHlo.after hostOps1 (W2 m ρ c) (Proc.devRef .tc main_arg15) = W2 m ρ c (Proc.devRef .tc main_arg15) by no_write).trans
      ((W2_of_ne m ρ c main_arg15 (by decide)).trans
        ((show StableHlo.after hostOps0 (W0 m ρ c) (Proc.devRef .tc main_arg15) = W0 m ρ c (Proc.devRef .tc main_arg15) by no_write).trans rfl)))

/-- Argument 16 is written by nothing before the classifier region: it is still the launch memory's there. -/
theorem W4_arg16 : W4 m ρ c (Proc.devRef .tc main_arg16) = (m ((c : Thread nD τ).loc main_arg16)) :=
  (W4_of_ne m ρ c main_arg16 (by decide)).trans
    ((show StableHlo.after hostOps1 (W2 m ρ c) (Proc.devRef .tc main_arg16) = W2 m ρ c (Proc.devRef .tc main_arg16) by no_write).trans
      ((W2_of_ne m ρ c main_arg16 (by decide)).trans
        ((show StableHlo.after hostOps0 (W0 m ρ c) (Proc.devRef .tc main_arg16) = W0 m ρ c (Proc.devRef .tc main_arg16) by no_write).trans rfl)))

set_option maxHeartbeats 8000000 in
/-- The first endpoint array: rows of the second convolution's result gathered at the first label row. -/
theorem W5_v76 : W5 m ρ c (Proc.devRef .tc main_v76) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg10)) (m ((c : Thread nD τ).loc main_arg11)) (m ((c : Thread nD τ).loc main_arg12)) := by
  show StableHlo.after hostOps2 (W4 m ρ c) (Proc.devRef .tc main_v76) = _
  after_results_simp
  rw [W4_v67, W4_arg4]
  rfl

set_option maxHeartbeats 8000000 in
/-- The second endpoint array: rows of the first convolution's result gathered at the second label row. -/
theorem W5_v85 : W5 m ρ c (Proc.devRef .tc main_v85) = val_main_v95 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v85) = _
  after_results_simp
  rw [W4_v65, W4_arg4]
  rfl

set_option maxHeartbeats 8000000 in
/-- The first hidden weight matrix: entry `(k, j)` is the [128, 256] matrix at `(j, k)`. -/
theorem W5_v88 (k j : Fin 128) :
    (W5 m ρ c (Proc.devRef .tc main_v88) : S128x128.Idx → EReal) (ix2 k j)
      = ((m ((c : Thread nD τ).loc main_arg13)) : S128x256.Idx → EReal) (ix2 j (⟨k.val, Nat.lt_of_lt_of_le k.isLt (by decide)⟩ : Fin 256)) := by
  have e : W5 m ρ c (Proc.devRef .tc main_v88)
      = transpose S128x128 [1, 0] (extractStridedSlice S128x128 ![0, 0] (W4 m ρ c (Proc.devRef .tc main_arg13)) slices_S128x256_S128x128_0_0)
          transposes_S128x128_S128x128_1_0 := by
    show StableHlo.after hostOps2 (W4 m ρ c) (Proc.devRef .tc main_v88) = _
    after_results_simp
  rw [e, W4_arg13, transpose_ix2_apply]
  exact slice2_axis1_apply 0 _ _ j k _ (Nat.zero_add _).symm

set_option maxHeartbeats 8000000 in
/-- The second hidden weight matrix: entry `(k, j)` is the [128, 256] matrix at `(j, 128 + k)`. -/
theorem W5_v89 (k j : Fin 128) :
    (W5 m ρ c (Proc.devRef .tc main_v89) : S128x128.Idx → EReal) (ix2 k j)
      = ((m ((c : Thread nD τ).loc main_arg13)) : S128x256.Idx → EReal) (ix2 j (⟨128 + k.val, by have := k.isLt; omega⟩ : Fin 256)) := by
  have e : W5 m ρ c (Proc.devRef .tc main_v89)
      = transpose S128x128 [1, 0] (extractStridedSlice S128x128 ![0, 128] (W4 m ρ c (Proc.devRef .tc main_arg13)) slices_S128x256_S128x128_0_128)
          transposes_S128x128_S128x128_1_0 := by
    show StableHlo.after hostOps2 (W4 m ρ c) (Proc.devRef .tc main_v89) = _
    after_results_simp
  rw [e, W4_arg13, transpose_ix2_apply]
  exact slice2_axis1_apply 128 _ _ j k _ rfl

set_option maxHeartbeats 8000000 in
/-- The hidden bias as a one-row matrix. -/
theorem W5_v90 (k : Fin 128) :
    (W5 m ρ c (Proc.devRef .tc main_v90) : S1x128.Idx → EReal) (ix2 (0 : Fin 1) k)
      = ((m ((c : Thread nD τ).loc main_arg14)) : S128.Idx → EReal) (ix1 k) := by
  have e : W5 m ρ c (Proc.devRef .tc main_v90)
      = shapeCast S1x128 (W4 m ρ c (Proc.devRef .tc main_arg14)) shapeCasts_S128_S1x128 := by
    show StableHlo.after hostOps2 (W4 m ρ c) (Proc.devRef .tc main_v90) = _
    after_results_simp
    rfl
  rw [e, W4_arg14]
  exact shapeCast_a_1a_apply _ _ (0 : Fin 1) k

set_option maxHeartbeats 8000000 in
/-- The scalar bias as a one-by-one matrix. -/
theorem W5_v91 :
    (W5 m ρ c (Proc.devRef .tc main_v91) : S1x1.Idx → EReal) (ix2 (0 : Fin 1) (0 : Fin 1))
      = ((m ((c : Thread nD τ).loc main_arg16)) : S1.Idx → EReal) (ix1 (0 : Fin 1)) := by
  have e : W5 m ρ c (Proc.devRef .tc main_v91)
      = shapeCast S1x1 (W4 m ρ c (Proc.devRef .tc main_arg16)) shapeCasts_S1_S1x1 := by
    show StableHlo.after hostOps2 (W4 m ρ c) (Proc.devRef .tc main_v91) = _
    after_results_simp
    rfl
  rw [e, W4_arg16]
  exact shapeCast_a_1a_apply _ _ (0 : Fin 1) (0 : Fin 1)

/-- The output weight row is the argument itself. -/
theorem W5_arg15 : W5 m ρ c (Proc.devRef .tc main_arg15) = (m ((c : Thread nD τ).loc main_arg15)) :=
  (show StableHlo.after hostOps2 (W4 m ρ c) (Proc.devRef .tc main_arg15) = W4 m ρ c (Proc.devRef .tc main_arg15) by no_write).trans
    (W4_arg15 m ρ c)

/-! ## The classifier region and the last reshape -/

/-- The classifier region leaves the reference's last column of the arguments. -/
theorem W6_v92 : W6 m ρ c (Proc.devRef .tc main_v92) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W6_arr m ρ c 7).trans ?_
  rw [Region2.out (V5 m ρ) c (m ((c : Thread nD τ).loc main_arg14)) (m ((c : Thread nD τ).loc main_arg16)) (fun k => W5_v90 m ρ c k) (W5_v91 m ρ c)]
  rw [classifier (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (W5 m ρ c (Proc.devRef .tc main_v88)) (W5 m ρ c (Proc.devRef .tc main_v89)) (W5_v88 m ρ c) (W5_v89 m ρ c)]
  show classify (L := 500000) (W5 m ρ c (Proc.devRef .tc main_v76)) (W5 m ρ c (Proc.devRef .tc main_v85)) _ _ _
    (W5 m ρ c (Proc.devRef .tc main_arg15)) _ = _
  rw [W5_v76, W5_v85, W5_arg15]

/-- THE RESULT: the kernel program's result buffer ends at the reference's result stage of the kernel program's arguments. -/
theorem result : W7 m ρ c (Proc.devRef .tc main_v93) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps3 (W6 m ρ c) (Proc.devRef .tc main_v93) = _
  after_results
  rw [W6_v92]
  rfl

end Cert.KernelIdeal.Fold

end
-- ==== Proof.lean ====
/-
  The certificate of a two-relation graph convolution followed by a link classifier, as three row-blocked kernel
  regions among host operations, against the plain reference.

  Both programs gather the two kinds of node features, and for each relation form the mean aggregate of the source
  rows over the edges into each target node (a segment sum divided by `max(count, 1)`) by the same host operations.
  The kernel program then computes each convolution `max ((a·wa + x·wx) + b, 0)` in a region over blocks of 5000 rows,
  gathers the two results at the label indices, and computes the classifier — the same layer of the two gathered
  arrays against the two halves of a [128, 256] weight matrix, contracted with a weight row plus a scalar — in a third
  region. The reference computes `max ((a·wa + b) + x·wx, 0)` and, for the classifier, contracts the concatenation
  of the two gathered arrays over all 256 positions.

  At the ideal values a change of float format is the identity and a matrix product is the plain sum of products, so
  entry by entry the two programs differ only in the order of a three-term sum and in the grouping of a 256-term sum
  into two of 128: both are laws of a commutative monoid and hold at the infinities too, so the precondition is never
  opened. The idealization rewrote nothing, so the kernel is its own sanctioned idealization.
-/
import proofs.«173871_j35691178230509_1_alg».proof.Defs
import proofs.«173871_j35691178230509_1_alg».proof.Proof.Gen.Kernel
import proofs.«173871_j35691178230509_1_alg».proof.Proof.Gen.Kernel.Frame
import proofs.«173871_j35691178230509_1_alg».proof.Proof.Gen.KernelIdeal
import proofs.«173871_j35691178230509_1_alg».proof.Proof.Gen.KernelIdeal.Frame
import proofs.«173871_j35691178230509_1_alg».proof.Proof.Gen.ReferenceIdeal
import proofs.«173871_j35691178230509_1_alg».proof.Proof.Gen.ReferenceIdeal.Run
import proofs.«173871_j35691178230509_1_alg».proof.Proof.Gen.ReferenceIdeal.Read
import proofs.«173871_j35691178230509_1_alg».proof.Proof.Gen.Pre_finite_inputs
import proofs.«173871_j35691178230509_1_alg».proof.Proof.KernelRun
import proofs.«173871_j35691178230509_1_alg».proof.Proof.KernelFold
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does the kernel read at the ideal values. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the reference's result stage of those arguments:
    the kernel program by reading its result buffer back through its segments, the reference by its own run. -/
theorem algebraic : Cert.algebraic_KernelIdeal_ReferenceIdeal := by
  intro m ρ m' ρ' _ hagree
  refine ⟨fun c => Cert.ReferenceIdeal.Read.val_main_v108 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16)), ?_, ?_⟩
  · exact (θ_run Cert.KernelIdeal.defs _ _).mono
      (fun r h c => ⟨(h c).1.trans (Cert.KernelIdeal.Fold.result m ρ c), (h c).2⟩)
      (Cert.KernelIdeal.KRun.run (F := Ideal) m ρ)
  · refine (θ_run Cert.ReferenceIdeal.defs _ _).mono (fun r h c => ⟨?_, (h c).2⟩)
      (Cert.ReferenceIdeal.Value.run (F := Ideal) m' ρ')
    refine (h c).1.trans ((Cert.ReferenceIdeal.Read.val_main_v108_eq (F := Ideal) m' c).trans ?_)
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
